-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S16x4096 .f32) (main_arg4 : FVec F S4096x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S128x4096 : Shape := ⟨2, ![128, 4096]⟩
abbrev S1 : Shape := ⟨1, ![1]⟩
abbrev S4096x128 : Shape := ⟨2, ![4096, 128]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩
abbrev S1024x128 : Shape := ⟨2, ![1024, 128]⟩
abbrev S128x512 : Shape := ⟨2, ![128, 512]⟩
abbrev S2048x128 : Shape := ⟨2, ![2048, 128]⟩

abbrev nBuf : Space → Nat
  | .hbm => 18
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S_, .bf16⟩
  | .hbm, ⟨6, _⟩ => ⟨S128x4096, .bf16⟩
  | .hbm, ⟨7, _⟩ => ⟨S16x4096, .bf16⟩
  | .hbm, ⟨8, _⟩ => ⟨S_, .i32⟩
  | .hbm, ⟨9, _⟩ => ⟨S1, .i32⟩
  | .hbm, ⟨10, _⟩ => ⟨S128x4096, .bf16⟩
  | .hbm, ⟨11, _⟩ => ⟨S_, .f32⟩
  | .hbm, ⟨12, _⟩ => ⟨S4096x128, .f32⟩
  | .hbm, ⟨13, _⟩ => ⟨S_, .i32⟩
  | .hbm, ⟨14, _⟩ => ⟨S1, .i32⟩
  | .hbm, ⟨15, _⟩ => ⟨S4096x128, .f32⟩
  | .hbm, ⟨16, _⟩ => ⟨S1x4096, .f32⟩
  | .hbm, ⟨17, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S1x2048, .f32⟩
  | .local _ .vmem, ⟨6, _⟩ => ⟨S128x4096, .bf16⟩
  | .local _ .vmem, ⟨7, _⟩ => ⟨S4096x128, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | .local _ .vmem, ⟨11, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 2, 8], ![false, false, false]⟩

def k0_mult1 (i : grid0.Coords) : BitVec 32 :=
  let arg2 : BitVec 32 := BitVec.ofNat 32 (i 2).val
  let c512_i32 : BitVec 32 := 512#32
  let v7 : BitVec 32 := Scalar.muli arg2 c512_i32
  v7
def k0_off1 (i : grid0.Coords) : Fin 2 → Nat :=
  let c0_4 : Index := 0#32
  let arg2 : BitVec 32 := BitVec.ofNat 32 (i 2).val
  let c512_i32 : BitVec 32 := 512#32
  let v7 : BitVec 32 := Scalar.muli arg2 c512_i32
  let v8 : BitVec 32 := v7
  let v9 : Index := Scalar.indexCast v8
  ![0, v9.toNat]
def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_14 : BitVec 32 := 0#32
  let v26 : BitVec 1 := Scalar.cmpi .ne v25 c0_i32_14
  v26

def k0_mult2 (i : grid0.Coords) : BitVec 32 :=
  let arg1 : BitVec 32 := BitVec.ofNat 32 (i 1).val
  let c2048_i32 : BitVec 32 := 2048#32
  let v27 : BitVec 32 := Scalar.muli arg1 c2048_i32
  v27
def k0_off2 (i : grid0.Coords) : Fin 2 → Nat :=
  let arg1 : BitVec 32 := BitVec.ofNat 32 (i 1).val
  let c2048_i32 : BitVec 32 := 2048#32
  let v27 : BitVec 32 := Scalar.muli arg1 c2048_i32
  let v28 : BitVec 32 := v27
  let v29 : Index := Scalar.indexCast v28
  let c0_15 : Index := 0#32
  ![v29.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bcast_S_S128x4096 : S_.BroadcastsInDim S128x4096 (![] : Fin 0 → Fin S128x4096.rank)
  bitsLt_bf16_f32 : FTy.bits .bf16 < FTy.bits .f32
  bcast_S_S1 : S_.BroadcastsInDim S1 (![] : Fin 0 → Fin S1.rank)
  bcast_S_S4096x128 : S_.BroadcastsInDim S4096x128 (![] : Fin 0 → Fin S4096x128.rank)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  h_S128x512 : 0 < S128x512.numel
  shapeCasts_S128x512_S128x512 : S128x512.ShapeCasts S128x512
  h_S2048x128 : 0 < S2048x128.numel
  shapeCasts_S2048x128_S2048x128 : S2048x128.ShapeCasts S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  scatter_S128x4096_S1_S16x4096_01_n_0_0_wf : ScatterDims.WF S128x4096 S1 S16x4096 [0, 1] [] [0] 0
  scatter_S4096x128_S1_S4096x16_01_n_1_0_wf : ScatterDims.WF S4096x128 S1 S4096x16 [0, 1] [] [1] 0
  dot_S1024x512_S2048x512_S1024x2048_1_1_0_0_n_n_wf : DotDims.WF S1024x512 S2048x512 S1024x2048 [1] [1] [0] [0] [] []
  dot_S1024x512_S128x512_S1024x128_1_1_0_0_n_n_wf : DotDims.WF S1024x512 S128x512 S1024x128 [1] [1] [0] [0] [] []
  dot_S1024x128_S2048x128_S1024x2048_1_1_0_0_n_n_wf : DotDims.WF S1024x128 S2048x128 S1024x2048 [1] [1] [0] [0] [] []
  hrank0 : 0 < grid0.rank
  k0_mult1_dvd : ∀ i : grid0.Coords, 512 ∣ (k0_mult1 i).toNat
  k0_off1_inb : ∀ i : grid0.Coords, ∀ a, (k0_off1 i) a + S128x512.size a ≤ S128x4096.size a
  k0_mult2_dvd : ∀ i : grid0.Coords, ∀ (k0_h2 : k0_cond2 i = 1#1), 2048 ∣ (k0_mult2 i).toNat
  k0_off2_inb : ∀ i : grid0.Coords, ∀ (k0_h2 : k0_cond2 i = 1#1), ∀ a, (k0_off2 i) a + S2048x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .f32 = 32 ∨ (Rect.block (s := S4096x4096) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S128x4096.size a
  hwx0_3 : ∀ i : grid0.Coords, EltTy.bits .bf16 = 32 ∨ (Rect.block (s := S128x4096) S128x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S4096x128.size a
  hwx0_4 : ∀ i : grid0.Coords, EltTy.bits .f32 = 32 ∨ (Rect.block (s := S4096x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S8192x4096.size a
  hwx0_5 : ∀ i : grid0.Coords, EltTy.bits .f32 = 32 ∨ (Rect.block (s := S8192x4096) S1024x2048.size (cc0_transform_5 i) (hinb0_5 i)).WholeWords (EltTy.packing .f32)

variable [Facts₀]

def scatter_S128x4096_S1_S16x4096_01_n_0_0 : ScatterDims S128x4096 S1 S16x4096 where
  updateWindowDims := [0, 1]
  insertedWindowDims := []
  scatterDimsToOperandDims := [0]
  indexVectorDim := 0
  wf := scatter_S128x4096_S1_S16x4096_01_n_0_0_wf
def scatter_S4096x128_S1_S4096x16_01_n_1_0 : ScatterDims S4096x128 S1 S4096x16 where
  updateWindowDims := [0, 1]
  insertedWindowDims := []
  scatterDimsToOperandDims := [1]
  indexVectorDim := 0
  wf := scatter_S4096x128_S1_S4096x16_01_n_1_0_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf
def dot_S1024x512_S128x512_S1024x128_1_1_0_0_n_n : DotDims S1024x512 S128x512 S1024x128 where
  lhsContracting := [1]
  rhsContracting := [1]
  lhsNonContracting := [0]
  rhsNonContracting := [0]
  lhsBatch := []
  rhsBatch := []
  wf := dot_S1024x512_S128x512_S1024x128_1_1_0_0_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4096x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x4096 : Shape := ⟨2, ![1, 4096]⟩
abbrev S8192x16 : Shape := ⟨2, ![8192, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x16, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []
  dot_S8192x4096_S16x4096_S8192x16_1_1_0_0_n_n_wf : DotDims.WF S8192x4096 S16x4096 S8192x16 [1] [1] [0] [0] [] []
  dot_S8192x16_S4096x16_S8192x4096_1_1_0_0_n_n_wf : DotDims.WF S8192x16 S4096x16 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S8192x16_S4096x16_S8192x4096_1_1_0_0_n_n : DotDims S8192x16 S4096x16 S8192x4096 where
  lhsContracting := [1]
  rhsContracting := [1]
  lhsNonContracting := [0]
  rhsNonContracting := [0]
  lhsBatch := []
  rhsBatch := []
  wf := dot_S8192x16_S4096x16_S8192x4096_1_1_0_0_n_n_wf

class Facts : Prop extends Facts₀ where

variable [Facts]
-- ==== Proof.Pieces.lean ====
/-
  What each kind of grid step leaves behind, as terms of the body's arithmetic.

  The kernel walks the contracted axis in eight steps per output block. Its first step stores zero into the two
  accumulators, reads it back and adds the step's two products; a middle step adds the step's products to what the
  accumulators held; the last step does the same and then stores the finishing expression into the output block. Each
  lemma opens the list of stores one case of the body was found to make — a store through a whole buffer leaves its value,
  a load of a whole buffer reads its contents, a load of what one such store left reads that value — and names the result
  as a payload of the step's input blocks and of what the accumulators held before the step. They hold for any float
  arithmetic.
-/
import proofs.«166349_j8744553415010_2_alg».proof.Proof.Gen.KernelIdeal.Frame
import Idealize.ShloMosaic.Lib.Pipeline.Value
import Idealize.ShloMosaic.Lib.Tactic

noncomputable section

namespace Cert.Lora.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The 512 columns of the wide A that a step at grid point `i` reads: columns 512·k … 512·k + 511, `k` the step along the
    contracted axis. -/
def colsOfA (i : grid0.Coords) (x3 : Vec F S128x4096 .bf16) : Vec F S128x512 .bf16 :=
  View.ld x3 (Rect.unit (s := S128x4096) (k0_off1 i) S128x512.size (k0_off1_inb i))

/-- The 2048 rows of the wide B that the finishing step at grid point `i` reads: rows 2048·j … 2048·j + 2047, `j` the
    column block of the output. -/
def rowsOfB (i : grid0.Coords) (h2 : k0_cond2 i = 1#1) (x4 : Vec F S4096x128 .f32) : Vec F S2048x128 .f32 :=
  View.ld x4 (Rect.unit (s := S4096x128) (k0_off2 i) S2048x128.size (k0_off2_inb i h2))

/-- A middle step leaves in the base accumulator what it held plus the step's product. -/
theorem base_B (c : Dev nD) (i : grid0.Coords) (arg3 : Memref sig .tc .vmem S1024x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S128x4096 .bf16) (harg6 : arg6.IsWhole) (arg7 : Memref sig .tc .vmem S4096x128 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x128 .f32) (harg10 : arg10.IsWhole) (hc0 : ¬cond0_0 i) (hc1 : ¬cond0_1 i)
    (x0 : Vec F S1024x512 .f32) (x1 : Vec F S2048x512 .f32) (x2 : Vec F S1x2048 .f32) (x3 : Vec F S128x4096 .bf16) (x4 : Vec F S4096x128 .f32) (xs0 : Vec F S1024x2048 .f32) (xs1 : Vec F S1024x128 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_unit_zero hz]
  simp only [View.readAt_eq_ld, harg3.read_unread, harg4.read_unread, harg5.read_unread, harg6.read_unread, harg7.read_unread, harg9.read_unread, harg10.read_unread, View.ld_unit_zero (S := S1024x512) hz, View.ld_unit_zero (S := S2048x512) hz, View.ld_unit_zero (S := S1x2048) hz, View.ld_unit_zero (S := S1024x2048) hz, View.ld_unit_zero (S := S1024x128) hz]

/-- A middle step leaves in the x·Aᵀ accumulator what it held plus the step's product. -/
theorem xa_B (c : Dev nD) (i : grid0.Coords) (arg3 : Memref sig .tc .vmem S1024x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S128x4096 .bf16) (harg6 : arg6.IsWhole) (arg7 : Memref sig .tc .vmem S4096x128 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x128 .f32) (harg10 : arg10.IsWhole) (hc0 : ¬cond0_0 i) (hc1 : ¬cond0_1 i)
    (x0 : Vec F S1024x512 .f32) (x1 : Vec F S2048x512 .f32) (x2 : Vec F S1x2048 .f32) (x3 : Vec F S128x4096 .bf16) (x4 : Vec F S4096x128 .f32) (xs0 : Vec F S1024x2048 .f32) (xs1 : Vec F S1024x128 .f32) :
    sout0_B_1 c i arg3 harg3 arg4 harg4 arg5 harg5 arg6 harg6 arg7 harg7 arg8 harg8 arg9 harg9 arg10 harg10 hc0 hc1 x0 x1 x2 x3 x4 xs0 xs1 = k0_pay5 x0 (colsOfA i x3) xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_unit_zero hz]
  simp only [View.readAt_eq_ld, harg3.read_unread, harg4.read_unread, harg5.read_unread, harg6.read_unread, harg7.read_unread, harg9.read_unread, harg10.read_unread, View.ld_unit_zero (S := S1024x512) hz, View.ld_unit_zero (S := S2048x512) hz, View.ld_unit_zero (S := S1x2048) hz, View.ld_unit_zero (S := S1024x2048) hz, View.ld_unit_zero (S := S1024x128) hz]
  rfl

/-- The first step of a run resets the base accumulator to zero and adds the step's product. -/
theorem base_A (c : Dev nD) (i : grid0.Coords) (arg3 : Memref sig .tc .vmem S1024x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S128x4096 .bf16) (harg6 : arg6.IsWhole) (arg7 : Memref sig .tc .vmem S4096x128 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x128 .f32) (harg10 : arg10.IsWhole) (hc0 : cond0_0 i) (hc1 : ¬cond0_1 i)
    (x0 : Vec F S1024x512 .f32) (x1 : Vec F S2048x512 .f32) (x2 : Vec F S1x2048 .f32) (x3 : Vec F S128x4096 .bf16) (x4 : Vec F S4096x128 .f32) :
    sout0_A_0 c i arg3 harg3 arg4 harg4 arg5 harg5 arg6 harg6 arg7 harg7 arg8 harg8 arg9 harg9 arg10 harg10 hc0 hc1 x0 x1 x2 x3 x4 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x2048) hz, View.readCov_unit_zero (S := S1024x2048) _ hz]
  simp only [View.readAt_eq_ld, harg3.read_unread, harg4.read_unread, harg5.read_unread, harg6.read_unread, harg7.read_unread, harg9.read_unread, harg10.read_unread, View.ld_unit_zero (S := S1024x512) hz, View.ld_unit_zero (S := S2048x512) hz, View.ld_unit_zero (S := S1x2048) hz, View.ld_unit_zero (S := S1024x2048) hz, View.ld_unit_zero (S := S1024x128) hz]

/-- The first step of a run resets the x·Aᵀ accumulator to zero and adds the step's product. -/
theorem xa_A (c : Dev nD) (i : grid0.Coords) (arg3 : Memref sig .tc .vmem S1024x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S128x4096 .bf16) (harg6 : arg6.IsWhole) (arg7 : Memref sig .tc .vmem S4096x128 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x128 .f32) (harg10 : arg10.IsWhole) (hc0 : cond0_0 i) (hc1 : ¬cond0_1 i)
    (x0 : Vec F S1024x512 .f32) (x1 : Vec F S2048x512 .f32) (x2 : Vec F S1x2048 .f32) (x3 : Vec F S128x4096 .bf16) (x4 : Vec F S4096x128 .f32) :
    sout0_A_1 c i arg3 harg3 arg4 harg4 arg5 harg5 arg6 harg6 arg7 harg7 arg8 harg8 arg9 harg9 arg10 harg10 hc0 hc1 x0 x1 x2 x3 x4 = k0_pay5 x0 (colsOfA i x3) k0_pay2 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x128) hz, View.readCov_unit_zero (S := S1024x128) _ hz]
  simp only [View.readAt_eq_ld, harg3.read_unread, harg4.read_unread, harg5.read_unread, harg6.read_unread, harg7.read_unread, harg9.read_unread, harg10.read_unread, View.ld_unit_zero (S := S1024x512) hz, View.ld_unit_zero (S := S2048x512) hz, View.ld_unit_zero (S := S1x2048) hz, View.ld_unit_zero (S := S1024x2048) hz, View.ld_unit_zero (S := S1024x128) hz]
  rfl

/-- The last step of a run leaves in the base accumulator what it held plus the step's product. -/
theorem base_C (c : Dev nD) (i : grid0.Coords) (arg3 : Memref sig .tc .vmem S1024x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S128x4096 .bf16) (harg6 : arg6.IsWhole) (arg7 : Memref sig .tc .vmem S4096x128 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x128 .f32) (harg10 : arg10.IsWhole) (hc0 : ¬cond0_0 i) (hc1 : cond0_1 i)
    (x0 : Vec F S1024x512 .f32) (x1 : Vec F S2048x512 .f32) (x2 : Vec F S1x2048 .f32) (x3 : Vec F S128x4096 .bf16) (x4 : Vec F S4096x128 .f32) (xs0 : Vec F S1024x2048 .f32) (xs1 : Vec F S1024x128 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x512) hz, View.ld_unit_zero (S := S2048x512) hz, View.ld_unit_zero (S := S1x2048) hz, View.ld_unit_zero (S := S1024x2048) hz, View.ld_unit_zero (S := S1024x128) hz]

/-- The last step of a run leaves in the x·Aᵀ accumulator what it held plus the step's product. -/
theorem xa_C (c : Dev nD) (i : grid0.Coords) (arg3 : Memref sig .tc .vmem S1024x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S128x4096 .bf16) (harg6 : arg6.IsWhole) (arg7 : Memref sig .tc .vmem S4096x128 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x128 .f32) (harg10 : arg10.IsWhole) (hc0 : ¬cond0_0 i) (hc1 : cond0_1 i)
    (x0 : Vec F S1024x512 .f32) (x1 : Vec F S2048x512 .f32) (x2 : Vec F S1x2048 .f32) (x3 : Vec F S128x4096 .bf16) (x4 : Vec F S4096x128 .f32) (xs0 : Vec F S1024x2048 .f32) (xs1 : Vec F S1024x128 .f32) :
    sout0_C_1 c i arg3 harg3 arg4 harg4 arg5 harg5 arg6 harg6 arg7 harg7 arg8 harg8 arg9 harg9 arg10 harg10 hc0 hc1 x0 x1 x2 x3 x4 xs0 xs1 = k0_pay5 x0 (colsOfA i x3) xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x512) hz, View.ld_unit_zero (S := S2048x512) hz, View.ld_unit_zero (S := S1x2048) hz, View.ld_unit_zero (S := S1024x2048) hz, View.ld_unit_zero (S := S1024x128) hz]
  rfl

/-- The last step of a run stores, into the output block, the finishing expression of the two accumulators as it has
    just left them, the bias row and the step's rows of the wide B. -/
theorem out_C (c : Dev nD) (i : grid0.Coords) (arg3 : Memref sig .tc .vmem S1024x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S128x4096 .bf16) (harg6 : arg6.IsWhole) (arg7 : Memref sig .tc .vmem S4096x128 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x128 .f32) (harg10 : arg10.IsWhole) (hc0 : ¬cond0_0 i) (hc1 : cond0_1 i)
    (x0 : Vec F S1024x512 .f32) (x1 : Vec F S2048x512 .f32) (x2 : Vec F S1x2048 .f32) (x3 : Vec F S128x4096 .bf16) (x4 : Vec F S4096x128 .f32) (xs0 : Vec F S1024x2048 .f32) (xs1 : Vec F S1024x128 .f32) :
    out0_C_5 c i arg3 harg3 arg4 harg4 arg5 harg5 arg6 harg6 arg7 harg7 arg8 harg8 arg9 harg9 arg10 harg10 hc0 hc1 x0 x1 x2 x3 x4 xs0 xs1
      = k0_pay6 (rowsOfB i hc1 x4) (k0_pay5 x0 (colsOfA i x3) xs1) (k0_pay4 x0 x1 xs0) x2 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz, View.readCov_unit_zero (S := S1024x128) _ hz, View.readCov_unit_zero (S := S1024x2048) _ hz]
  simp only [View.readAt_eq_ld, harg3.read_unread, harg4.read_unread, harg5.read_unread, harg6.read_unread, harg7.read_unread, harg9.read_unread, harg10.read_unread, View.ld_unit_zero (S := S1024x512) hz, View.ld_unit_zero (S := S2048x512) hz, View.ld_unit_zero (S := S1x2048) hz, View.ld_unit_zero (S := S1024x2048) hz, View.ld_unit_zero (S := S1024x128) hz]
  rfl

end Cert.Lora.Pieces

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.Spec.lean ====
/-
  A linear layer with a low-rank correction, out = x·Wᵀ + bias + 2·(x·Aᵀ)·Bᵀ, as one function of its five arrays; the same
  function with the rank axis padded by zeros; and a contraction accumulated block by block.

  `G` is the layer as the host computes it: entry (t, o) is (Σ_k x(t,k)·W(o,k) + bias(o)) + 2·Σ_{r<16} (Σ_k x(t,k)·A(r,k))·B(o,r).
  `KG` is the same expression over a 128-row factor `Ap`, a 128-column factor `Bp` and the bias carried as a one-row matrix: what
  a kernel computes when the rank axis is widened from 16 to 128. When the two wide factors are `A` and `B` continued by zeros
  (`padRows`, `padCols`) every term with r ≥ 16 is a product with zero, which is zero in the extended reals whatever the other
  factor is, so `KG` of the padded factors is `G` (`KG_pad_eq_G`): no finiteness is needed.
  `blockAcc f k` is a sum of 4096 terms taken over its first k + 1 blocks of 512: it starts at the first block's sum, grows by one
  block's sum per step, and after the eighth block is the whole sum — only associativity and commutativity of the addition.
-/
import Idealize.ShloMosaic.PureOps.Ideal
import Idealize.ShloMosaic.PureOps.Ideal.Laws
import Idealize.ShloMosaic.Lib.ValueIdx
import proofs.«166349_j8744553415010_2_alg».proof.Proof.LibSumBlocks

noncomputable section

namespace Cert.Lora

open Idealize.ShloMosaic Idealize.ShloMosaic.ValueIdx Cert.Lib.SumBlocks

/-- The scale of the low-rank term, 2.0, as the one word both programs spell. -/
abbrev two : EReal := Ideal.ofBits .f32 0x40000000#32

/-- Entry (t, o) of the layer. -/
def entry (X : (⟨2, ![8192, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) (t : Fin 8192) (o : Fin 4096) : EReal :=
  (∑ k : Fin 4096, X (ix2 t k) * W (ix2 o k) + b (ix1 o))
    + two * ∑ r : Fin 16, (∑ k : Fin 4096, X (ix2 t k) * A (ix2 r k)) * B (ix2 o r)

/-- The layer, as one function of its five arrays. -/
def G (X : (⟨2, ![8192, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) : (⟨2, ![8192, 4096]⟩ : Shape).Idx → EReal :=
  fun i => entry X W b A B (i 0) (i 1)

/-- Entry (t, o) of the layer over a rank axis of width 128, the bias a one-row matrix. -/
def kentry (X : (⟨2, ![8192, 4096]⟩ : Shape).Idx → EReal) (W : (⟨2, ![4096, 4096]⟩ : Shape).Idx → EReal)
    (b2 : (⟨2, ![1, 4096]⟩ : Shape).Idx → EReal) (Ap : (⟨2, ![128, 4096]⟩ : Shape).Idx → EReal)
    (Bp : (⟨2, ![4096, 128]⟩ : Shape).Idx → EReal) (t : Fin 8192) (o : Fin 4096) : EReal :=
  (∑ k : Fin 4096, X (ix2 t k) * W (ix2 o k) + b2 (ix2 (0 : Fin 1) o))
    + two * ∑ r : Fin 128, (∑ k : Fin 4096, X (ix2 t k) * Ap (ix2 r k)) * Bp (ix2 o r)

/-- The wide layer, as one function of the five arrays the kernel is given. -/
def KG (X : (⟨2, ![8192, 4096]⟩ : Shape).Idx → EReal) (W : (⟨2, ![4096, 4096]⟩ : Shape).Idx → EReal)
    (b2 : (⟨2, ![1, 4096]⟩ : Shape).Idx → EReal) (Ap : (⟨2, ![128, 4096]⟩ : Shape).Idx → EReal)
    (Bp : (⟨2, ![4096, 128]⟩ : Shape).Idx → EReal) : (⟨2, ![8192, 4096]⟩ : Shape).Idx → EReal :=
  fun i => kentry X W b2 Ap Bp (i 0) (i 1)

/-- `A` continued by 112 rows of zeros. -/
def padRows (A : (⟨2, ![16, 4096]⟩ : Shape).Idx → EReal) : (⟨2, ![128, 4096]⟩ : Shape).Idx → EReal :=
  fun i => if h : (i 0).val < 16 then A (ix2 ⟨(i 0).val, h⟩ (i 1)) else 0

/-- `B` continued by 112 columns of zeros. -/
def padCols (B : (⟨2, ![4096, 16]⟩ : Shape).Idx → EReal) : (⟨2, ![4096, 128]⟩ : Shape).Idx → EReal :=
  fun i => if h : (i 1).val < 16 then B (ix2 (i 0) ⟨(i 1).val, h⟩) else 0

/-- A sum over a longer range of a function continued by zero is the sum over its own range. -/
theorem sum_onNat_of_le {β : Type*} [AddCommMonoid β] {n N : ℕ} (h : n ≤ N) (g : Fin n → β) :
    ∑ r : Fin N, onNat g r.val = ∑ r : Fin n, g r := by
  have hsub : Finset.range n ⊆ Finset.range N := Finset.range_mono h
  calc ∑ r : Fin N, onNat g r.val = ∑ k ∈ Finset.range N, onNat g k := Fin.sum_univ_eq_sum_range (onNat g) N
    _ = ∑ k ∈ Finset.range n, onNat g k :=
        (Finset.sum_subset hsub (fun k _ hk => dif_neg (fun hlt => hk (Finset.mem_range.2 hlt)))).symm
    _ = ∑ r : Fin n, onNat g r.val := (Fin.sum_univ_eq_sum_range (onNat g) n).symm
    _ = ∑ r : Fin n, g r := Finset.sum_congr rfl fun r _ => onNat_of_lt g r.val r.isLt

/-- The bias as a one-row matrix. -/
def biasRow (b : (⟨1, ![4096]⟩ : Shape).Idx → EReal) : (⟨2, ![1, 4096]⟩ : Shape).Idx → EReal :=
  fun i => b (ix1 (i 1))

theorem padRows_of_lt (A : (⟨2, ![16, 4096]⟩ : Shape).Idx → EReal) (r : Fin 128) (k : Fin 4096) (h : r.val < 16) :
    padRows A (ix2 r k) = A (ix2 ⟨r.val, h⟩ k) := dif_pos h
theorem padRows_of_ge (A : (⟨2, ![16, 4096]⟩ : Shape).Idx → EReal) (r : Fin 128) (k : Fin 4096) (h : ¬r.val < 16) :
    padRows A (ix2 r k) = 0 := dif_neg h
theorem padCols_of_lt (B : (⟨2, ![4096, 16]⟩ : Shape).Idx → EReal) (o : Fin 4096) (r : Fin 128) (h : r.val < 16) :
    padCols B (ix2 o r) = B (ix2 o ⟨r.val, h⟩) := dif_pos h
theorem padCols_of_ge (B : (⟨2, ![4096, 16]⟩ : Shape).Idx → EReal) (o : Fin 4096) (r : Fin 128) (h : ¬r.val < 16) :
    padCols B (ix2 o r) = 0 := dif_neg h

/-- With the rank axis padded by zeros an entry of the wide layer is the layer's. -/
theorem kentry_pad (X : (⟨2, ![8192, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) (t : Fin 8192) (o : Fin 4096) :
    kentry X W (biasRow b) (padRows A) (padCols B) t o = entry X W b A B t o := by
  unfold kentry entry
  have hsum : ∑ r : Fin 128, (∑ k : Fin 4096, X (ix2 t k) * padRows A (ix2 r k)) * padCols B (ix2 o r)
      = ∑ r : Fin 16, (∑ k : Fin 4096, X (ix2 t k) * A (ix2 r k)) * B (ix2 o r) := by
    rw [← sum_onNat_of_le (by decide : 16 ≤ 128)
      (fun r : Fin 16 => (∑ k : Fin 4096, X (ix2 t k) * A (ix2 r k)) * B (ix2 o r))]
    refine Finset.sum_congr rfl fun r _ => ?_
    by_cases hr : r.val < 16
    · rw [onNat_of_lt _ r.val hr, padCols_of_lt B o r hr]
      exact congrArg (· * _) (Finset.sum_congr rfl fun k _ => by rw [padRows_of_lt A r k hr])
    · have e0 : onNat (fun r : Fin 16 => (∑ k : Fin 4096, X (ix2 t k) * A (ix2 r k)) * B (ix2 o r)) r.val = 0 :=
        dif_neg hr
      rw [padCols_of_ge B o r hr, e0, mul_zero]
  rw [hsum]
  rfl

/-- With the rank axis padded by zeros the wide layer is the layer. -/
theorem KG_pad_eq_G (X : (⟨2, ![8192, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) :
    KG X W (biasRow b) (padRows A) (padCols B) = G X W b A B :=
  funext fun i => kentry_pad X W b A B (i 0) (i 1)

/-! ## A sum of 4096 terms accumulated in eight blocks of 512 -/

/-- The sum of block `s`: positions s·512 … s·512 + 511. -/
def blockSum (f : Fin 4096 → EReal) (s : ℕ) : EReal := ∑ q : Fin 512, onNat f (s * 512 + q.val)

/-- The sum over the first k + 1 blocks. -/
def blockAcc (f : Fin 4096 → EReal) (k : ℕ) : EReal := ∑ s ∈ Finset.range (k + 1), blockSum f s

theorem blockAcc_zero (f : Fin 4096 → EReal) : (0 : EReal) + blockSum f 0 = blockAcc f 0 := by
  unfold blockAcc
  rw [zero_add, Finset.sum_range_one]

theorem blockAcc_succ (f : Fin 4096 → EReal) (k : ℕ) : blockAcc f k + blockSum f (k + 1) = blockAcc f (k + 1) := by
  unfold blockAcc
  rw [Finset.sum_range_succ _ (k + 1)]

theorem blockAcc_last (f : Fin 4096 → EReal) : blockAcc f 7 = ∑ k : Fin 4096, f k := by
  unfold blockAcc blockSum
  exact (sum_fin_blocks 8 512 (by norm_num) f).symm

end Cert.Lora

end
-- ==== Proof.Blocks.lean ====
/-
  The blocks a grid step is given, read at an entry as entries of the whole arrays.

  The 128 grid points are numbered row-major over (row block of 1024, column block of 2048, step of 512 along the contracted
  axis): point t has row block t / 16, column block (t / 8) % 2 and step t % 8 (`idx_facts`, decided once over the grid).
  So entry (p, k) of the step's x block is x at (1024·(t/16) + p, 512·(t%8) + k), entry (q, k) of its W block is W at
  (2048·((t/8)%2) + q, 512·(t%8) + k), the bias block holds the bias row's columns 2048·((t/8)%2) …, and the two wide factors
  are given whole. Rows are named by a natural number (`rowN`), so that two points of one run name the same row by an
  equation between numbers.
-/
import proofs.«166349_j8744553415010_2_alg».proof.Proof.Gen.KernelIdeal.Frame
import proofs.«166349_j8744553415010_2_alg».proof.Proof.Pieces
import proofs.«166349_j8744553415010_2_alg».proof.Proof.Spec
import Idealize.ShloMosaic.Lib.Pipeline.Value
import Idealize.ShloMosaic.Lib.ValueIdx

noncomputable section

namespace Cert.Lora

open Idealize.ShloMosaic Idealize.ShloMosaic.ValueIdx

/-- Row `a` of a matrix, the row named by a natural number (zero past the last row). -/
def rowN {N D : ℕ} (X : (⟨2, ![N, D]⟩ : Shape).Idx → EReal) (a : ℕ) (k : Fin D) : EReal :=
  if h : a < N then X (ix2 ⟨a, h⟩ k) else 0

theorem rowN_of_lt {N D : ℕ} (X : (⟨2, ![N, D]⟩ : Shape).Idx → EReal) (a : ℕ) (k : Fin D) (h : a < N) :
    rowN X a k = X (ix2 ⟨a, h⟩ k) := dif_pos h

/-- The row named by the number of a row index is that row. -/
theorem rowN_eq {N D : ℕ} (X : (⟨2, ![N, D]⟩ : Shape).Idx → EReal) (a : ℕ) (R : Fin N) (h : R.val = a) (k : Fin D) :
    rowN X a k = X (ix2 R k) := by
  subst h
  exact rowN_of_lt X R.val k R.isLt

end Cert.Lora

namespace Cert.Lora.Blocks

open Cert.KernelIdeal Cert.KernelIdeal.Gen Idealize.ShloMosaic Idealize.ShloMosaic.TcCoe Idealize.SL.Sem
open Idealize.ShloMosaic.ValueIdx Cert.Lora Cert.Lora.Pieces

variable (m : (ℓ : Loc nD τ sig) → Buf (Elt Ideal) ℓ)

/-- The printed index maps and grid coordinates in closed form, decided over the 128 points. -/
theorem idx_facts : ∀ t : Fin cfg0.N,
    win0_0.index t (0 : Fin 2) = t.val / 16 ∧ win0_0.index t (1 : Fin 2) = t.val % 8
    ∧ win0_1.index t (0 : Fin 2) = (t.val / 8) % 2 ∧ win0_1.index t (1 : Fin 2) = t.val % 8
    ∧ win0_2.index t (0 : Fin 2) = 0 ∧ win0_2.index t (1 : Fin 2) = (t.val / 8) % 2
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 16 ∧ win0_5.index t (1 : Fin 2) = (t.val / 8) % 2
    ∧ ((grid0.coords t) 1).val = (t.val / 8) % 2 ∧ ((grid0.coords t) 2).val = t.val % 8 :=
  (by decide +kernel : ∀ t : Fin grid0.N, _)

/-- The five arrays as the region finds them, as functions into the extended reals. -/
abbrev Xa (c : Dev nD) : S8192x4096.Idx → EReal := V m c main_arg0
abbrev Wa (c : Dev nD) : S4096x4096.Idx → EReal := V m c main_arg1
abbrev B2 (c : Dev nD) : S1x4096.Idx → EReal := V m c main_v7
abbrev Ap (c : Dev nD) : S128x4096.Idx → EReal := V m c main_v3
abbrev Bp (c : Dev nD) : S4096x128.Idx → EReal := V m c main_v6

/-- The five input blocks of point `t`, each with its literal vector type. -/
abbrev xBlk (c : Dev nD) (t : Fin cfg0.N) : Vec Ideal S1024x512 .f32 := iblk m c 0 t
abbrev wBlk (c : Dev nD) (t : Fin cfg0.N) : Vec Ideal S2048x512 .f32 := iblk m c 1 t
abbrev biasBlk (c : Dev nD) (t : Fin cfg0.N) : Vec Ideal S1x2048 .f32 := iblk m c 2 t
abbrev aBlk (c : Dev nD) (t : Fin cfg0.N) : Vec Ideal S128x4096 .bf16 := iblk m c 3 t
abbrev bBlk (c : Dev nD) (t : Fin cfg0.N) : Vec Ideal S4096x128 .f32 := iblk m c 4 t

/-- Entry (p, k) of the step's x block. -/
theorem xblk_apply (c : Dev nD) (t : Fin cfg0.N) (p : Fin 1024) (k : Fin 512) (K : Fin 4096)
    (hK : K.val = (t.val % 8) * 512 + k.val) :
    (iblk m c 0 t : S1024x512.Idx → EReal) (ix2 p k) = rowN (Xa m c) (1024 * (t.val / 16) + p.val) K := by
  obtain ⟨e0, e1, -⟩ := idx_facts t
  have hN : t.val < 128 := lt_of_lt_of_eq t.isLt N_0
  have hrow : 1024 * (t.val / 16) + p.val < 8192 := by omega
  rw [rowN_of_lt _ _ _ hrow]
  unfold iblk
  rw [View.read_apply]
  show V m c main_arg0 _ = V m c main_arg0 _
  congr 1
  funext a
  apply Fin.ext
  match a with
  | ⟨0, _⟩ => show win0_0.index t (0 : Fin 2) * 1024 + 1 * p.val = 1024 * (t.val / 16) + p.val; rw [e0]; omega
  | ⟨1, _⟩ => show win0_0.index t (1 : Fin 2) * 512 + 1 * k.val = K.val; rw [e1, hK]; omega

/-- Entry (q, k) of the step's W block. -/
theorem wblk_apply (c : Dev nD) (t : Fin cfg0.N) (q : Fin 2048) (k : Fin 512) (K : Fin 4096)
    (hK : K.val = (t.val % 8) * 512 + k.val) :
    (iblk m c 1 t : S2048x512.Idx → EReal) (ix2 q k) = rowN (Wa m c) (2048 * ((t.val / 8) % 2) + q.val) K := by
  obtain ⟨-, -, e0, e1, -⟩ := idx_facts t
  have hrow : 2048 * ((t.val / 8) % 2) + q.val < 4096 := by omega
  rw [rowN_of_lt _ _ _ hrow]
  unfold iblk
  rw [View.read_apply]
  show V m c main_arg1 _ = V m c main_arg1 _
  congr 1
  funext a
  apply Fin.ext
  match a with
  | ⟨0, _⟩ => show win0_1.index t (0 : Fin 2) * 2048 + 1 * q.val = 2048 * ((t.val / 8) % 2) + q.val; rw [e0]; omega
  | ⟨1, _⟩ => show win0_1.index t (1 : Fin 2) * 512 + 1 * k.val = K.val; rw [e1, hK]; omega

/-- Entry (0, q) of the step's bias block. -/
theorem biasblk_apply (c : Dev nD) (t : Fin cfg0.N) (q : Fin 2048) (Q : Fin 4096)
    (hQ : Q.val = 2048 * ((t.val / 8) % 2) + q.val) :
    (iblk m c 2 t : S1x2048.Idx → EReal) (ix2 (0 : Fin 1) q) = B2 m c (ix2 (0 : Fin 1) Q) := by
  obtain ⟨-, -, -, -, e0, e1, -⟩ := idx_facts t
  unfold iblk
  rw [View.read_apply]
  show V m c main_v7 _ = V m c main_v7 _
  congr 1
  funext a
  apply Fin.ext
  match a with
  | ⟨0, _⟩ => show win0_2.index t (0 : Fin 2) * 1 + 1 * 0 = 0; rw [e0]
  | ⟨1, _⟩ => show win0_2.index t (1 : Fin 2) * 2048 + 1 * q.val = Q.val; rw [e1, hQ]; omega

/-- The wide A is given whole. -/
theorem wideA_blk (c : Dev nD) (t : Fin cfg0.N) : (iblk m c 3 t : S128x4096.Idx → EReal) = Ap m c := by
  obtain ⟨-, -, -, -, -, -, e0, e1, -⟩ := idx_facts t
  funext y
  unfold iblk
  rw [View.read_apply]
  show V m c main_v3 _ = V m c main_v3 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 4096 + 1 * (y 1).val = (y 1).val; rw [e1]; omega

/-- The wide B is given whole. -/
theorem wideB_blk (c : Dev nD) (t : Fin cfg0.N) : (iblk m c 4 t : S4096x128.Idx → EReal) = Bp m c := by
  obtain ⟨-, -, -, -, -, -, -, -, e0, e1, -⟩ := idx_facts t
  funext y
  unfold iblk
  rw [View.read_apply]
  show V m c main_v6 _ = V m c main_v6 y
  congr 1
  funext a
  apply Fin.ext
  match a with
  | ⟨0, _⟩ => show win0_4.index t (0 : Fin 2) * 4096 + 1 * (y 0).val = (y 0).val; rw [e0]; omega
  | ⟨1, _⟩ => show win0_4.index t (1 : Fin 2) * 128 + 1 * (y 1).val = (y 1).val; rw [e1]; omega

theorem xBlk_apply (c : Dev nD) (t : Fin cfg0.N) (p : Fin 1024) (k : Fin 512) (K : Fin 4096)
    (hK : K.val = (t.val % 8) * 512 + k.val) :
    xBlk m c t (ix2 p k) = rowN (Xa m c) (1024 * (t.val / 16) + p.val) K := xblk_apply m c t p k K hK

theorem wBlk_apply (c : Dev nD) (t : Fin cfg0.N) (q : Fin 2048) (k : Fin 512) (K : Fin 4096)
    (hK : K.val = (t.val % 8) * 512 + k.val) :
    wBlk m c t (ix2 q k) = rowN (Wa m c) (2048 * ((t.val / 8) % 2) + q.val) K := wblk_apply m c t q k K hK

theorem biasBlk_apply (c : Dev nD) (t : Fin cfg0.N) (q : Fin 2048) (Q : Fin 4096)
    (hQ : Q.val = 2048 * ((t.val / 8) % 2) + q.val) :
    biasBlk m c t (ix2 (0 : Fin 1) q) = B2 m c (ix2 (0 : Fin 1) Q) := biasblk_apply m c t q Q hQ

theorem aBlk_eq (c : Dev nD) (t : Fin cfg0.N) : aBlk m c t = Ap m c := wideA_blk m c t

theorem bBlk_eq (c : Dev nD) (t : Fin cfg0.N) : bBlk m c t = Bp m c := wideB_blk m c t

/-- Entry (r, k) of the step's 512 columns of the wide A. -/
theorem colsOfA_apply (i : grid0.Coords) (x3 : Vec Ideal S128x4096 .bf16) (r : Fin 128) (k : Fin 512) (K : Fin 4096)
    (hK : K.val = 512 * (i 2).val + k.val) :
    colsOfA i x3 (ix2 r k) = x3 (ix2 r K) := by
  unfold colsOfA
  show x3 _ = x3 _
  congr 1
  funext a
  apply Fin.ext
  match a with
  | ⟨0, _⟩ =>
    show (k0_off1 i) 0 + 1 * r.val = r.val
    rw [k0_off1_eq i]
    show 0 + 1 * r.val = r.val
    omega
  | ⟨1, _⟩ =>
    show (k0_off1 i) 1 + 1 * k.val = K.val
    rw [k0_off1_eq i, hK]
    show 512 * (i 2).val + 1 * k.val = 512 * (i 2).val + k.val
    omega

/-- Entry (q, r) of the finishing step's 2048 rows of the wide B. -/
theorem rowsOfB_apply (i : grid0.Coords) (h2 : k0_cond2 i = 1#1) (x4 : Vec Ideal S4096x128 .f32) (q : Fin 2048)
    (r : Fin 128) (Q : Fin 4096) (hQ : Q.val = 2048 * (i 1).val + q.val) :
    rowsOfB i h2 x4 (ix2 q r) = x4 (ix2 Q r) := by
  unfold rowsOfB
  show x4 _ = x4 _
  congr 1
  funext a
  apply Fin.ext
  match a with
  | ⟨0, _⟩ =>
    show (k0_off2 i) 0 + 1 * q.val = Q.val
    rw [k0_off2_eq i, hQ]
    show 2048 * (i 1).val + 1 * q.val = 2048 * (i 1).val + q.val
    omega
  | ⟨1, _⟩ =>
    show (k0_off2 i) 1 + 1 * r.val = r.val
    rw [k0_off2_eq i]
    show 0 + 1 * r.val = r.val
    omega

end Cert.Lora.Blocks

end
-- ==== Proof.LibRowsByRows.lean ====
/-
  Two layout facts and one product that an attention kernel's block meets, each read at an index written by its coordinates.

  A block `[1, 1, a, b]` that carries one batch and one head is cast to the matrix `[a, b]` (and a result matrix back):
  both casts keep the row-major position, so entry `(i, j)` of the matrix is entry `(0, 0, i, j)` of the block. The
  scores `q · kᵀ` are a product of an `[m, K]` matrix with an `[n, K]` matrix contracting the two SECOND axes (the keys are
  stored row by row, not transposed): at the ideal values, into the zero splat, entry `(p, q)` is the inner product of row
  `p` of the left operand with row `q` of the right one, `Σ_k l(p, k) · r(q, k)`. The record is given literally over any
  well-formedness witness, so a printed record of that form is an instance by unfolding its name. Nothing here mentions a
  program.
-/
import Idealize.ShloMosaic.PureOps.Ideal.Laws
import Idealize.ShloMosaic.Lib.Pipeline.Value
import Idealize.ShloMosaic.Lib.ValueIdx

noncomputable section

namespace Cert.RowsByRows

open Idealize.ShloMosaic Idealize.ShloMosaic.ValueIdx

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A product with the right operand's rows: axis 1 contracted with axis 1 -/

/-- The literal record of an `[m, K] × [n, K]` product contracting the two second axes. -/
abbrev rowsByRows {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (rowsByRows wf).contr.Idx)

/-- The left operand's row is the result's row. -/
theorem rbr_lhs_row : ((rowsByRows wf).lhsIdx j k 0).val = (j 0).val := by
  unfold DotDims.lhsIdx
  rw [dif_neg (show ¬(0 : Fin (⟨2, ![m, K]⟩ : Shape).rank) ∈ (rowsByRows wf).lhsBatch from List.not_mem_nil),
    dif_pos (show (0 : Fin (⟨2, ![m, K]⟩ : Shape).rank) ∈ (rowsByRows wf).lhsNonContracting from List.mem_singleton.mpr rfl)]
  rfl

/-- The left operand's column is the contracted coordinate. -/
theorem rbr_lhs_col : ((rowsByRows wf).lhsIdx j k 1).val = (k ⟨0, Nat.one_pos⟩).val :=
  (rowsByRows wf).lhsIdx_val_of_single rfl j k

/-- The right operand's row is the result's column. -/
theorem rbr_rhs_row : ((rowsByRows wf).rhsIdx j k 0).val = (j 1).val := by
  unfold DotDims.rhsIdx
  rw [dif_neg (show ¬(0 : Fin (⟨2, ![n, K]⟩ : Shape).rank) ∈ (rowsByRows wf).rhsBatch from List.not_mem_nil),
    dif_pos (show (0 : Fin (⟨2, ![n, K]⟩ : Shape).rank) ∈ (rowsByRows wf).rhsNonContracting from List.mem_singleton.mpr rfl)]
  rfl

/-- The right operand's column is the contracted coordinate. -/
theorem rbr_rhs_col : ((rowsByRows wf).rhsIdx j k 1).val = (k ⟨0, Nat.one_pos⟩).val :=
  (rowsByRows wf).rhsIdx_val_of_single rfl j k

end

/-- Entry (p, q) of the product into the zero splat is the inner product of row p of the left operand with row q of
    the right one. -/
theorem matmul_rowsByRows_apply {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) (p : Fin m) (q : Fin n) :
    FloatOps.matmul (rowsByRows wf) prec l r (constant (⟨2, ![m, n]⟩ : Shape) .f32 0x00000000#32) (ix2 p q)
      = ∑ k : Fin K, l (ix2 p k) * r (ix2 q k) := by
  rw [Ideal.matmul_constant_zero_apply]
  rw [← Equiv.sum_comp (contrEquiv1 (rowsByRows wf) K rfl rfl).symm]
  refine Finset.sum_congr rfl fun k _ => ?_
  have hk := contrEquiv1_symm_val (rowsByRows wf) K rfl rfl k
  have el : (rowsByRows wf).lhsIdx (ix2 p q) ((contrEquiv1 (rowsByRows wf) K rfl rfl).symm k) = ix2 p k :=
    funext fun a => Fin.ext (by
      match a with
      | ⟨0, _⟩ => exact rbr_lhs_row wf _ _
      | ⟨1, _⟩ => exact (rbr_lhs_col wf _ _).trans hk)
  have er : (rowsByRows wf).rhsIdx (ix2 p q) ((contrEquiv1 (rowsByRows wf) K rfl rfl).symm k) = ix2 q k :=
    funext fun a => Fin.ext (by
      match a with
      | ⟨0, _⟩ => exact rbr_rhs_row wf _ _
      | ⟨1, _⟩ => exact (rbr_rhs_col wf _ _).trans hk)
  rw [el, er]

end Cert.RowsByRows

end
-- ==== Proof.Payload.lean ====
/-
  The kernel body's arithmetic read at an entry, over the extended reals.

  One grid step adds to the running base product the product of the step's x block [1024, 512] with the step's W block
  [2048, 512], rows against rows (`accBase_apply`); adds to the running x·Aᵀ the product of the x block with 512 columns of
  the wide A (`accXa_apply`); and the last step forms (base + bias) + 2·(xa · Bpᵀ) from 2048 rows of the wide B
  (`finish_apply`). A change of float format is the identity here, and a product into the zero splat is the plain sum of
  products.
-/
import proofs.«166349_j8744553415010_2_alg».proof.Proof.Gen.KernelIdeal.Skeleton
import proofs.«166349_j8744553415010_2_alg».proof.Proof.LibRowsByRows
import proofs.«166349_j8744553415010_2_alg».proof.Proof.Spec
import Idealize.ShloMosaic.Lib.Pipeline.Value
import Idealize.ShloMosaic.Lib.ValueIdx
import Idealize.ShloMosaic.PureOps.Ideal.Laws

noncomputable section

namespace Cert.Lora.Payload

open Cert.KernelIdeal Cert.KernelIdeal.Gen Idealize.ShloMosaic Idealize.ShloMosaic.ValueIdx Cert.RowsByRows

/-- The reset value of the base accumulator is zero everywhere. -/
theorem zeroBase_apply (j : S1024x2048.Idx) : k0_pay1 (F := Ideal) j = 0 := by
  unfold k0_pay1
  try dsimp only
  rw [shapeCast_self]
  exact Ideal.ofBits_zero_f32

/-- The reset value of the x·Aᵀ accumulator is zero everywhere. -/
theorem zeroXa_apply (j : S1024x128.Idx) : k0_pay2 (F := Ideal) j = 0 := by
  unfold k0_pay2
  try dsimp only
  rw [shapeCast_self]
  exact Ideal.ofBits_zero_f32

/-- x block times W block, rows against rows, into the zero splat. -/
theorem matmul_xw (l : FVec Ideal S1024x512 .bf16) (r : FVec Ideal S2048x512 .bf16) (p : Fin 1024) (q : Fin 2048) :
    matmul (F := Ideal) dot_S1024x512_S2048x512_S1024x2048_1_1_0_0_n_n none l r
        (constant (F := Ideal) S1024x2048 .f32 0x00000000#32) (ix2 p q)
      = ∑ k : Fin 512, l (ix2 p k) * r (ix2 q k) :=
  matmul_rowsByRows_apply dot_S1024x512_S2048x512_S1024x2048_1_1_0_0_n_n_wf none l r p q

/-- x block times 512 columns of the wide A, rows against rows, into the zero splat. -/
theorem matmul_xa (l : FVec Ideal S1024x512 .bf16) (r : FVec Ideal S128x512 .bf16) (p : Fin 1024) (q : Fin 128) :
    matmul (F := Ideal) dot_S1024x512_S128x512_S1024x128_1_1_0_0_n_n none l r
        (constant (F := Ideal) S1024x128 .f32 0x00000000#32) (ix2 p q)
      = ∑ k : Fin 512, l (ix2 p k) * r (ix2 q k) :=
  matmul_rowsByRows_apply dot_S1024x512_S128x512_S1024x128_1_1_0_0_n_n_wf none l r p q

/-- x·Aᵀ times 2048 rows of the wide B, rows against rows, into the zero splat. -/
theorem matmul_ab (l : FVec Ideal S1024x128 .f32) (r : FVec Ideal S2048x128 .f32) (p : Fin 1024) (q : Fin 2048) :
    matmul (F := Ideal) dot_S1024x128_S2048x128_S1024x2048_1_1_0_0_n_n none l r
        (constant (F := Ideal) S1024x2048 .f32 0x00000000#32) (ix2 p q)
      = ∑ k : Fin 128, l (ix2 p k) * r (ix2 q k) :=
  matmul_rowsByRows_apply dot_S1024x128_S2048x128_S1024x2048_1_1_0_0_n_n_wf none l r p q

/-- One step of the base accumulation at (p, q): what was there plus Σ_k x(p,k)·W(q,k) over the step's 512 columns. -/
theorem accBase_apply (v3 : Vec Ideal S1024x512 .f32) (v5 : Vec Ideal S2048x512 .f32) (v12 : Vec Ideal S1024x2048 .f32)
    (p : Fin 1024) (q : Fin 2048) :
    k0_pay4 (F := Ideal) v3 v5 v12 (ix2 p q) = v12 (ix2 p q) + ∑ k : Fin 512, v3 (ix2 p k) * v5 (ix2 q k) := by
  unfold k0_pay4 k0_pay3
  try dsimp only
  rw [shapeCast_self]
  show v12 (ix2 p q) + matmul (F := Ideal) dot_S1024x512_S2048x512_S1024x2048_1_1_0_0_n_n none _ _ _ (ix2 p q) = _
  rw [matmul_xw]
  rfl

/-- One step of the x·Aᵀ accumulation at (p, r): what was there plus Σ_k x(p,k)·a(r,k) over the step's 512 columns. -/
theorem accXa_apply (v3 : Vec Ideal S1024x512 .f32) (v10 : Vec Ideal S128x512 .bf16) (v18 : Vec Ideal S1024x128 .f32)
    (p : Fin 1024) (r : Fin 128) :
    k0_pay5 (F := Ideal) v3 v10 v18 (ix2 p r) = v18 (ix2 p r) + ∑ k : Fin 512, v3 (ix2 p k) * v10 (ix2 r k) := by
  unfold k0_pay5 k0_pay3
  try dsimp only
  rw [shapeCast_self, shapeCast_self]
  show v18 (ix2 p r) + matmul (F := Ideal) dot_S1024x512_S128x512_S1024x128_1_1_0_0_n_n none _ _ _ (ix2 p r) = _
  rw [matmul_xa]
  rfl

/-- The one-row bias broadcast down the rows reads the row's entry q. -/
theorem biasBcast_apply (v : FVec Ideal S1x2048 .f32) (p : Fin 1024) (q : Fin 2048) :
    broadcastTo S1024x2048 v broadcasts_S1x2048_S1024x2048 (ix2 p q) = v (ix2 (0 : Fin 1) q) :=
  broadcastTo_apply v broadcasts_S1x2048_S1024x2048 (ix2 p q) (ix2 (0 : Fin 1) q) (fun a => by
    match a with
    | ⟨0, _⟩ => show 0 = if (1 : Nat) = 1 then 0 else _; rw [if_pos rfl]
    | ⟨1, _⟩ => show q.val = if (2048 : Nat) = 1 then 0 else q.val; rw [if_neg (by decide)])

/-- The finishing step at (p, q): (base + bias(q)) + 2·Σ_r xa(p,r)·b(q,r). -/
theorem finish_apply (v30 : Vec Ideal S2048x128 .f32) (v32 : Vec Ideal S1024x128 .f32) (v34 : Vec Ideal S1024x2048 .f32)
    (v35 : Vec Ideal S1x2048 .f32) (p : Fin 1024) (q : Fin 2048) :
    k0_pay6 (F := Ideal) v30 v32 v34 v35 (ix2 p q)
      = (v34 (ix2 p q) + v35 (ix2 (0 : Fin 1) q)) + Cert.Lora.two * ∑ r : Fin 128, v32 (ix2 p r) * v30 (ix2 q r) := by
  unfold k0_pay6
  try dsimp only
  rw [shapeCast_self, shapeCast_self]
  show (v34 (ix2 p q) + broadcastTo S1024x2048 v35 broadcasts_S1x2048_S1024x2048 (ix2 p q))
      + Ideal.ofBits .f32 0x40000000#32 * matmul (F := Ideal) dot_S1024x128_S2048x128_S1024x2048_1_1_0_0_n_n none _ _ _ (ix2 p q) = _
  rw [matmul_ab, biasBcast_apply]

end Cert.Lora.Payload

end
-- ==== Proof.Invariant.lean ====
/-
  What the two accumulators hold after every grid point.

  Along one run of eight steps (one output block) the base accumulator at (p, q) holds, after step k, the sum over the first
  k + 1 blocks of 512 of x(row, ·)·W(col, ·), where row = 1024·(t/16) + p and col = 2048·((t/8)%2) + q are the entry's row and
  column in the whole arrays; the x·Aᵀ accumulator at (p, r) holds the same partial sum of x(row, ·)·Ap(r, ·). The first step
  of a run starts both from zero; every later step adds one block; the row and the column do not change inside a run. Proved
  by induction on the point, never by listing the grid.
-/
import proofs.«166349_j8744553415010_2_alg».proof.Proof.Gen.KernelIdeal.Frame
import proofs.«166349_j8744553415010_2_alg».proof.Proof.Blocks
import proofs.«166349_j8744553415010_2_alg».proof.Proof.Payload
import proofs.«166349_j8744553415010_2_alg».proof.Proof.Pieces

noncomputable section

namespace Cert.Lora.Invariant

open Cert.KernelIdeal Cert.KernelIdeal.Gen Idealize.ShloMosaic Idealize.ShloMosaic.TcCoe Idealize.SL.Sem
open Idealize.ShloMosaic.ValueIdx Cert.Lora Cert.Lora.Pieces Cert.Lora.Blocks Cert.Lora.Payload Cert.Lib.SumBlocks

variable (m : (ℓ : Loc nD τ sig) → Buf (Elt Ideal) ℓ)

/-- The 4096 terms of the base product at entry (p, q) of the output block of point `n`. -/
def fBase (c : Dev nD) (n : ℕ) (p : Fin 1024) (q : Fin 2048) : Fin 4096 → EReal :=
  fun kk => rowN (Xa m c) (1024 * (n / 16) + p.val) kk * rowN (Wa m c) (2048 * ((n / 8) % 2) + q.val) kk

/-- The 4096 terms of x·Aᵀ at entry (p, r) for the row block of point `n`. -/
def fXa (c : Dev nD) (n : ℕ) (p : Fin 1024) (r : Fin 128) : Fin 4096 → EReal :=
  fun kk => rowN (Xa m c) (1024 * (n / 16) + p.val) kk * Ap m c (ix2 r kk)

/-- The step's base product at (p, q) is block t % 8 of the 4096 terms. -/
theorem base_blockSum (c : Dev nD) (t : Fin cfg0.N) (p : Fin 1024) (q : Fin 2048) :
    ∑ k : Fin 512, xBlk m c t (ix2 p k) * wBlk m c t (ix2 q k)
      = blockSum (fBase m c t.val p q) (t.val % 8) := by
  unfold blockSum
  refine Finset.sum_congr rfl fun k _ => ?_
  have hk : (t.val % 8) * 512 + k.val < 4096 := by have := k.isLt; omega
  rw [onNat_of_lt _ _ hk, xBlk_apply m c t p k ⟨_, hk⟩ rfl, wBlk_apply m c t q k ⟨_, hk⟩ rfl]
  rfl

/-- The step's x·Aᵀ product at (p, r) is block t % 8 of the 4096 terms. -/
theorem xa_blockSum (c : Dev nD) (t : Fin cfg0.N) (p : Fin 1024) (r : Fin 128) :
    ∑ k : Fin 512, xBlk m c t (ix2 p k) * colsOfA (F := Ideal) (grid0.coords t) (aBlk m c t) (ix2 r k)
      = blockSum (fXa m c t.val p r) (t.val % 8) := by
  obtain ⟨-, -, -, -, -, -, -, -, -, -, -, -, -, e2⟩ := idx_facts t
  unfold blockSum
  refine Finset.sum_congr rfl fun k _ => ?_
  have hk : (t.val % 8) * 512 + k.val < 4096 := by have := k.isLt; omega
  rw [onNat_of_lt _ _ hk, xBlk_apply m c t p k ⟨_, hk⟩ rfl,
    colsOfA_apply (grid0.coords t) (aBlk m c t) r k ⟨_, hk⟩ (by rw [e2]; show (t.val % 8) * 512 + k.val = _; omega),
    congrFun (aBlk_eq m c t) (ix2 r ⟨_, hk⟩)]
  rfl

/-- The first point of a run leaves the base accumulator at the first product from zero. -/
theorem scrA_base (c : Dev nD) (t : Fin cfg0.N) (h0 : t.val % 8 = 0) (h1 : ¬t.val % 8 = 7) :
    (outsAt0 m c t.val t.isLt).2.1 = k0_pay4 (F := Ideal) (xBlk m c t) (wBlk m c t) (k0_pay1 (F := Ideal)) := by
  rw [outsAt0_A m c t h0 h1]
  dsimp only
  exact base_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (xBlk m c t) (wBlk m c t) (biasBlk m c t) (aBlk m c t) (bBlk m c t)

/-- … and the x·Aᵀ accumulator likewise. -/
theorem scrA_xa (c : Dev nD) (t : Fin cfg0.N) (h0 : t.val % 8 = 0) (h1 : ¬t.val % 8 = 7) :
    (outsAt0 m c t.val t.isLt).2.2
      = k0_pay5 (F := Ideal) (xBlk m c t) (colsOfA (F := Ideal) (grid0.coords t) (aBlk m c t)) (k0_pay2 (F := Ideal)) := by
  rw [outsAt0_A m c t h0 h1]
  dsimp only
  exact xa_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (xBlk m c t) (wBlk m c t) (biasBlk m c t) (aBlk m c t) (bBlk m c t)

/-- A middle point of a run adds its product to the base accumulator the point before left. -/
theorem scrB_base (c : Dev nD) (t : Fin cfg0.N) (h0 : ¬t.val % 8 = 0) (h1 : ¬t.val % 8 = 7) :
    (outsAt0 m c t.val t.isLt).2.1 = k0_pay4 (F := Ideal) (xBlk m c t) (wBlk m c t) (outsAt0 m c (t.val - 1) (Nat.lt_of_le_of_lt (Nat.sub_le _ _) t.isLt)).2.1 := by
  rw [outsAt0_B m c t h0 h1]
  dsimp only
  exact base_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (xBlk m c t) (wBlk m c t) (biasBlk m c t) (aBlk m c t) (bBlk m c t) (outsAt0 m c (t.val - 1) (Nat.lt_of_le_of_lt (Nat.sub_le _ _) t.isLt)).2.1 (outsAt0 m c (t.val - 1) (Nat.lt_of_le_of_lt (Nat.sub_le _ _) t.isLt)).2.2

/-- … and to the x·Aᵀ accumulator likewise. -/
theorem scrB_xa (c : Dev nD) (t : Fin cfg0.N) (h0 : ¬t.val % 8 = 0) (h1 : ¬t.val % 8 = 7) :
    (outsAt0 m c t.val t.isLt).2.2 = k0_pay5 (F := Ideal) (xBlk m c t) (colsOfA (F := Ideal) (grid0.coords t) (aBlk m c t)) (outsAt0 m c (t.val - 1) (Nat.lt_of_le_of_lt (Nat.sub_le _ _) t.isLt)).2.2 := by
  rw [outsAt0_B m c t h0 h1]
  dsimp only
  exact xa_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (xBlk m c t) (wBlk m c t) (biasBlk m c t) (aBlk m c t) (bBlk m c t) (outsAt0 m c (t.val - 1) (Nat.lt_of_le_of_lt (Nat.sub_le _ _) t.isLt)).2.1 (outsAt0 m c (t.val - 1) (Nat.lt_of_le_of_lt (Nat.sub_le _ _) t.isLt)).2.2

/-- The last point of a run adds its product to the base accumulator the point before left. -/
theorem scrC_base (c : Dev nD) (t : Fin cfg0.N) (h0 : ¬t.val % 8 = 0) (h1 : t.val % 8 = 7) :
    (outsAt0 m c t.val t.isLt).2.1 = k0_pay4 (F := Ideal) (xBlk m c t) (wBlk m c t) (outsAt0 m c (t.val - 1) (Nat.lt_of_le_of_lt (Nat.sub_le _ _) t.isLt)).2.1 := by
  rw [outsAt0_C m c t h0 h1]
  dsimp only
  exact base_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xBlk m c t) (wBlk m c t) (biasBlk m c t) (aBlk m c t) (bBlk m c t) (outsAt0 m c (t.val - 1) (Nat.lt_of_le_of_lt (Nat.sub_le _ _) t.isLt)).2.1 (outsAt0 m c (t.val - 1) (Nat.lt_of_le_of_lt (Nat.sub_le _ _) t.isLt)).2.2

/-- … and to the x·Aᵀ accumulator likewise. -/
theorem scrC_xa (c : Dev nD) (t : Fin cfg0.N) (h0 : ¬t.val % 8 = 0) (h1 : t.val % 8 = 7) :
    (outsAt0 m c t.val t.isLt).2.2 = k0_pay5 (F := Ideal) (xBlk m c t) (colsOfA (F := Ideal) (grid0.coords t) (aBlk m c t)) (outsAt0 m c (t.val - 1) (Nat.lt_of_le_of_lt (Nat.sub_le _ _) t.isLt)).2.2 := by
  rw [outsAt0_C m c t h0 h1]
  dsimp only
  exact xa_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xBlk m c t) (wBlk m c t) (biasBlk m c t) (aBlk m c t) (bBlk m c t) (outsAt0 m c (t.val - 1) (Nat.lt_of_le_of_lt (Nat.sub_le _ _) t.isLt)).2.1 (outsAt0 m c (t.val - 1) (Nat.lt_of_le_of_lt (Nat.sub_le _ _) t.isLt)).2.2

/-- The last point of a run stores the finishing expression of the two accumulators as it leaves them. -/
theorem scrC_out (c : Dev nD) (t : Fin cfg0.N) (h0 : ¬t.val % 8 = 0) (h1 : t.val % 8 = 7) :
    (outsAt0 m c t.val t.isLt).1
      = k0_pay6 (F := Ideal) (rowsOfB (F := Ideal) (grid0.coords t) ((hcond0_1 t).mpr h1) (bBlk m c t))
          (k0_pay5 (F := Ideal) (xBlk m c t) (colsOfA (F := Ideal) (grid0.coords t) (aBlk m c t)) (outsAt0 m c (t.val - 1) (Nat.lt_of_le_of_lt (Nat.sub_le _ _) t.isLt)).2.2)
          (k0_pay4 (F := Ideal) (xBlk m c t) (wBlk m c t) (outsAt0 m c (t.val - 1) (Nat.lt_of_le_of_lt (Nat.sub_le _ _) t.isLt)).2.1) (biasBlk m c t) := by
  rw [outsAt0_C m c t h0 h1]
  dsimp only
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xBlk m c t) (wBlk m c t) (biasBlk m c t) (aBlk m c t) (bBlk m c t) (outsAt0 m c (t.val - 1) (Nat.lt_of_le_of_lt (Nat.sub_le _ _) t.isLt)).2.1 (outsAt0 m c (t.val - 1) (Nat.lt_of_le_of_lt (Nat.sub_le _ _) t.isLt)).2.2

/-- The two accumulators after point `n` are the partial sums over the first n % 8 + 1 blocks. -/
def Inv (c : Dev nD) (n : ℕ) (h : n < cfg0.N) : Prop :=
  (∀ (p : Fin 1024) (q : Fin 2048), (outsAt0 m c n h).2.1 (ix2 p q) = blockAcc (fBase m c n p q) (n % 8))
  ∧ (∀ (p : Fin 1024) (r : Fin 128), (outsAt0 m c n h).2.2 (ix2 p r) = blockAcc (fXa m c n p r) (n % 8))

/-- One more block added to a partial sum, at an entry. -/
theorem base_grow (x0 : Vec Ideal S1024x512 .f32) (x1 : Vec Ideal S2048x512 .f32) (acc : Vec Ideal S1024x2048 .f32)
    (p : Fin 1024) (q : Fin 2048) (f : Fin 4096 → EReal) (s : ℕ) (hacc : acc (ix2 p q) = blockAcc f s)
    (hblk : ∑ k : Fin 512, x0 (ix2 p k) * x1 (ix2 q k) = blockSum f (s + 1)) :
    k0_pay4 (F := Ideal) x0 x1 acc (ix2 p q) = blockAcc f (s + 1) := by
  rw [accBase_apply, hacc, hblk]
  exact blockAcc_succ f s

theorem xa_grow (x0 : Vec Ideal S1024x512 .f32) (a : Vec Ideal S128x512 .bf16) (acc : Vec Ideal S1024x128 .f32)
    (p : Fin 1024) (r : Fin 128) (f : Fin 4096 → EReal) (s : ℕ) (hacc : acc (ix2 p r) = blockAcc f s)
    (hblk : ∑ k : Fin 512, x0 (ix2 p k) * a (ix2 r k) = blockSum f (s + 1)) :
    k0_pay5 (F := Ideal) x0 a acc (ix2 p r) = blockAcc f (s + 1) := by
  rw [accXa_apply, hacc, hblk]
  exact blockAcc_succ f s

/-- The first block, from zero, at an entry. -/
theorem base_start (x0 : Vec Ideal S1024x512 .f32) (x1 : Vec Ideal S2048x512 .f32)
    (p : Fin 1024) (q : Fin 2048) (f : Fin 4096 → EReal)
    (hblk : ∑ k : Fin 512, x0 (ix2 p k) * x1 (ix2 q k) = blockSum f 0) :
    k0_pay4 (F := Ideal) x0 x1 (k0_pay1 (F := Ideal)) (ix2 p q) = blockAcc f 0 := by
  rw [accBase_apply, zeroBase_apply, hblk]
  exact blockAcc_zero f

theorem xa_start (x0 : Vec Ideal S1024x512 .f32) (a : Vec Ideal S128x512 .bf16)
    (p : Fin 1024) (r : Fin 128) (f : Fin 4096 → EReal)
    (hblk : ∑ k : Fin 512, x0 (ix2 p k) * a (ix2 r k) = blockSum f 0) :
    k0_pay5 (F := Ideal) x0 a (k0_pay2 (F := Ideal)) (ix2 p r) = blockAcc f 0 := by
  rw [accXa_apply, zeroXa_apply, hblk]
  exact blockAcc_zero f

/-- At the first point of a run the accumulators hold the first block. -/
theorem inv_first (c : Dev nD) (t : Fin cfg0.N) (h0 : t.val % 8 = 0) : Inv m c t.val t.isLt := by
  have e0 := scrA_base m c t h0 (by omega)
  have e1 := scrA_xa m c t h0 (by omega)
  constructor
  · intro p q
    rw [e0, h0]
    exact base_start (xBlk m c t) (wBlk m c t) p q (fBase m c t.val p q)
      (by have := base_blockSum m c t p q; rw [h0] at this; exact this)
  · intro p r
    rw [e1, h0]
    exact xa_start (xBlk m c t) (colsOfA (F := Ideal) (grid0.coords t) (aBlk m c t)) p r (fXa m c t.val p r)
      (by have := xa_blockSum m c t p r; rw [h0] at this; exact this)

/-- A later point of a run adds one block to what the point before left. -/
theorem inv_next (c : Dev nD) (t : Fin cfg0.N) (h0 : ¬t.val % 8 = 0)
    (ih : Inv m c (t.val - 1) (Nat.lt_of_le_of_lt (Nat.sub_le _ _) t.isLt)) : Inv m c t.val t.isLt := by
  obtain ⟨ih0, ih1⟩ := ih
  have hk : t.val % 8 = (t.val - 1) % 8 + 1 := by omega
  have hrow : (t.val - 1) / 16 = t.val / 16 := by omega
  have hcol : ((t.val - 1) / 8) % 2 = (t.val / 8) % 2 := by omega
  have hfB : ∀ p q, fBase m c (t.val - 1) p q = fBase m c t.val p q := fun p q => by unfold fBase; rw [hrow, hcol]
  have hfX : ∀ p r, fXa m c (t.val - 1) p r = fXa m c t.val p r := fun p r => by unfold fXa; rw [hrow]
  have e : (outsAt0 m c t.val t.isLt).2.1 = k0_pay4 (F := Ideal) (xBlk m c t) (wBlk m c t) (outsAt0 m c (t.val - 1) (Nat.lt_of_le_of_lt (Nat.sub_le _ _) t.isLt)).2.1
      ∧ (outsAt0 m c t.val t.isLt).2.2
        = k0_pay5 (F := Ideal) (xBlk m c t) (colsOfA (F := Ideal) (grid0.coords t) (aBlk m c t)) (outsAt0 m c (t.val - 1) (Nat.lt_of_le_of_lt (Nat.sub_le _ _) t.isLt)).2.2 := by
    by_cases h1 : t.val % 8 = 7
    · exact ⟨scrC_base m c t h0 h1, scrC_xa m c t h0 h1⟩
    · exact ⟨scrB_base m c t h0 h1, scrB_xa m c t h0 h1⟩
  obtain ⟨e0, e1⟩ := e
  constructor
  · intro p q
    rw [e0, hk]
    exact base_grow (xBlk m c t) (wBlk m c t) (outsAt0 m c (t.val - 1) (Nat.lt_of_le_of_lt (Nat.sub_le _ _) t.isLt)).2.1 p q (fBase m c t.val p q) ((t.val - 1) % 8)
      (by rw [ih0 p q, hfB p q])
      (by have := base_blockSum m c t p q; rw [hk] at this; exact this)
  · intro p r
    rw [e1, hk]
    exact xa_grow (xBlk m c t) (colsOfA (F := Ideal) (grid0.coords t) (aBlk m c t)) (outsAt0 m c (t.val - 1) (Nat.lt_of_le_of_lt (Nat.sub_le _ _) t.isLt)).2.2 p r
      (fXa m c t.val p r) ((t.val - 1) % 8)
      (by rw [ih1 p r, hfX p r])
      (by have := xa_blockSum m c t p r; rw [hk] at this; exact this)

/-- The accumulators after every point. -/
theorem acc_inv (c : Dev nD) : ∀ (n : ℕ) (h : n < cfg0.N), Inv m c n h
  | 0, h => inv_first m c ⟨0, h⟩ (Nat.zero_mod _)
  | n + 1, h => by
    by_cases h0 : (n + 1) % 8 = 0
    · exact inv_first m c ⟨n + 1, h⟩ h0
    · exact inv_next m c ⟨n + 1, h⟩ h0 (acc_inv c n (Nat.lt_of_succ_lt h))

end Cert.Lora.Invariant

end
-- ==== Proof.LibScatterRows.lean ====
/-
  THE HOST'S ACCUMULATING ROW SCATTER, READ AT COORDINATES (at the ideal instance; no program is mentioned).

  `stablehlo.scatter` with an `add` body, an operand of rows `[N, D]` (or a vector `[N]`), scatter indices a
  column `[E, 1]` of integers and updates `[E, D]` (or `[E]`), with update_window_dims `[1]` (or none),
  inserted_window_dims `[0]`, scatter_dims_to_operand_dims `[0]` and index_vector_dim `1`: update row `e` is added
  to operand row `idx[e, 0]`, the index read as a SIGNED integer and NOT clamped; a row whose index is negative or
  at least `N` is dropped. This is what a segment sum over `E` items into `N` segments is.

  Contents. `resultIdx_eq_some_iff`: for any dimension numbers, update index `j` lands at operand index `i` exactly
  when start plus window coordinate equals `i`'s coordinate on every axis, as integers. For the two records above: the
  start and the window coordinate on each axis as plain values (`start_rows_zero` … `window_vec_zero`), which update
  lands at which element (`resultIdx_rows_iff`, `resultIdx_vec_iff`), and the scatter read at an element as the
  operand's element plus a sum over the update rows `e` with `(idx (ix2 e 0)).toInt = n`
  (`scatterAdd_rows_apply`, `scatterAdd_vec_apply`). Every statement is generic in the extents, the index width and
  the float format, and holds for any witness of the dimension numbers' conditions.
-/
import Idealize.ShloMosaic.PureOps.Ideal
import Idealize.ShloMosaic.PureOps.Ideal.Laws
import Idealize.ShloMosaic.Lib.ValueIdx
import Mathlib

noncomputable section

open scoped BigOperators
open Idealize.ShloMosaic Idealize.ShloMosaic.ValueIdx

namespace ScatterRows

/-- The landing index of a scatter update, read as equations between integers: update index `j` lands at operand
    index `i` exactly when on every operand axis the window's signed start plus the window coordinate is `i`'s
    coordinate. -/
theorem resultIdx_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hb
      have h' := Option.some.inj h
      have ha : (d.start j idx a + (d.window j a : ℤ)).toNat = (i a).val := congrArg (fun f => (f a).val) h'
      have := (hb a).1
      omega
    · cases h
  · intro h
    have hb : ∀ a, 0 ≤ d.start j idx a + (d.window j a : ℤ) ∧ d.start j idx a + (d.window j a : ℤ) < s.size a := by
      intro a
      rw [h a]
      exact ⟨Int.natCast_nonneg _, by exact_mod_cast (i a).isLt⟩
    rw [dif_pos hb]
    congr 1
    funext a
    refine Fin.ext ?_
    show (d.start j idx a + (d.window j a : ℤ)).toNat = (i a).val
    rw [h a]
    exact Int.toNat_natCast _

section Rows
variable {N D E w : Nat}

/-- On the operand's row axis the window of update `(e, c')` starts at the index read at `(e, 0)`, as a signed
    integer. -/
theorem start_rows_zero (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- On the operand's column axis, which the index vector does not name, the window starts at `0`. -/
theorem start_rows_one (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 1 = 0 := by
  unfold ScatterDims.start
  rw [dif_neg (show (1 : Fin 2) ∉ ([0] : List (Fin 2)) by decide)]

/-- The row axis is an inserted window axis: the window coordinate on it is `0`. -/
theorem window_rows_zero (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 0 = 0 := by
  unfold ScatterDims.window
  exact dif_neg (show (0 : Fin 2) ∉ (List.finRange 2).filter (· ∉ ([0] : List (Fin 2))) by decide)

/-- On the column axis the window coordinate of update `(e, c')` is its column `c'`. -/
theorem window_rows_one (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 1 = c'.val := by
  unfold ScatterDims.window
  refine (dif_pos (show (1 : Fin 2) ∈ (List.finRange 2).filter (· ∉ ([0] : List (Fin 2))) by decide)).trans ?_
  rfl

/-- WHICH UPDATE LANDS WHERE, by rows: update `(e, c')` lands at operand element `(n, c)` exactly when the signed
    index read at `(e, 0)` is `n` and the columns agree. -/
theorem resultIdx_rows_iff (wf : ScatterDims.WF (⟨2, ![N, D]⟩ : Shape) ⟨2, ![E, 1]⟩ ⟨2, ![E, D]⟩ [1] [0] [0] 1)
    (idx : IVec ⟨2, ![E, 1]⟩ w) (e : Fin E) (c' : Fin D) (n : Fin N) (c : Fin D) :
    (⟨[1], [0], [0], 1, wf⟩ : ScatterDims ⟨2, ![N, D]⟩ ⟨2, ![E, 1]⟩ ⟨2, ![E, D]⟩).resultIdx? (ix2 e c') idx
        = some (ix2 n c)
      ↔ (idx (ix2 e 0)).toInt = (n : ℤ) ∧ c' = c := by
  rw [resultIdx_eq_some_iff]
  constructor
  · intro h
    have h0 := h 0
    have h1 := h 1
    rw [start_rows_zero, window_rows_zero] at h0
    rw [start_rows_one, window_rows_one] at h1
    have h0' : (idx (ix2 e 0)).toInt + ((0 : ℕ) : ℤ) = (n.val : ℤ) := h0
    have h1' : (0 : ℤ) + (c'.val : ℤ) = (c.val : ℤ) := h1
    refine ⟨by omega, Fin.ext (by omega)⟩
  · rintro ⟨h0, rfl⟩ a
    match a with
    | ⟨0, _⟩ =>
      show (⟨[1], [0], [0], 1, wf⟩ : ScatterDims ⟨2, ![N, D]⟩ ⟨2, ![E, 1]⟩ ⟨2, ![E, D]⟩).start (ix2 e c') idx 0
        + (((⟨[1], [0], [0], 1, wf⟩ : ScatterDims ⟨2, ![N, D]⟩ ⟨2, ![E, 1]⟩ ⟨2, ![E, D]⟩).window (ix2 e c') 0 : ℕ) : ℤ)
        = (n.val : ℤ)
      rw [start_rows_zero, window_rows_zero]
      omega
    | ⟨1, _⟩ =>
      show (⟨[1], [0], [0], 1, wf⟩ : ScatterDims ⟨2, ![N, D]⟩ ⟨2, ![E, 1]⟩ ⟨2, ![E, D]⟩).start (ix2 e c') idx 1
        + (((⟨[1], [0], [0], 1, wf⟩ : ScatterDims ⟨2, ![N, D]⟩ ⟨2, ![E, 1]⟩ ⟨2, ![E, D]⟩).window (ix2 e c') 1 : ℕ) : ℤ)
        = (c'.val : ℤ)
      rw [start_rows_one, window_rows_one]
      omega

/-- THE ROW SCATTER READ AT `(n, c)`: the operand's element plus the sum, over the update rows `e` whose signed index
    is `n`, of the update's element `(e, c)`. Rows whose index is negative or at least `N` meet no `n` and
    contribute nowhere. -/
theorem scatterAdd_rows_apply {φ : FTy}
    (wf : ScatterDims.WF (⟨2, ![N, D]⟩ : Shape) ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (F := Ideal)
        (⟨[1], [0], [0], 1, wf⟩ : ScatterDims ⟨2, ![N, D]⟩ ⟨2, ![E, 1]⟩ ⟨2, ![E, D]⟩) x idx upd (ix2 n c)
      = x (ix2 n c)
        + ∑ e ∈ Finset.univ.filter (fun e : Fin E => (idx (ix2 e 0)).toInt = (n : ℤ)), upd (ix2 e c) := by
  show x (ix2 n c) + ∑ j ∈ Finset.univ.filter (fun j =>
      (⟨[1], [0], [0], 1, wf⟩ : ScatterDims ⟨2, ![N, D]⟩ ⟨2, ![E, 1]⟩ ⟨2, ![E, D]⟩).resultIdx? j idx
        = some (ix2 n c)), upd j = _
  congr 1
  rw [Finset.sum_filter, sum_idx2, Finset.sum_filter]
  refine Finset.sum_congr rfl fun e _ => ?_
  refine (Finset.sum_congr rfl fun b _ => if_congr (resultIdx_rows_iff wf idx e b n c) rfl rfl).trans ?_
  by_cases hq : (idx (ix2 e 0)).toInt = (n : ℤ)
  · simp [hq]
  · simp [hq]

end Rows

section Vec
variable {N E w : Nat}

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- On the vector operand's one axis the window of update `e` starts at the index read at `(e, 0)`, as a signed
    integer. -/
theorem start_vec_zero (wf : ScatterDims.WF (⟨1, ![N]⟩ : Shape) ⟨2, ![E, 1]⟩ ⟨1, ![E]⟩ [] [0] [0] 1)
    (idx : IVec ⟨2, ![E, 1]⟩ w) (e : Fin E) :
    (⟨[], [0], [0], 1, wf⟩ : ScatterDims ⟨1, ![N]⟩ ⟨2, ![E, 1]⟩ ⟨1, ![E]⟩).start (ix1 e) idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- The vector operand's one axis is an inserted window axis: the window coordinate on it is `0`. -/
theorem window_vec_zero (wf : ScatterDims.WF (⟨1, ![N]⟩ : Shape) ⟨2, ![E, 1]⟩ ⟨1, ![E]⟩ [] [0] [0] 1) (e : Fin E) :
    (⟨[], [0], [0], 1, wf⟩ : ScatterDims ⟨1, ![N]⟩ ⟨2, ![E, 1]⟩ ⟨1, ![E]⟩).window (ix1 e) 0 = 0 := by
  unfold ScatterDims.window
  exact dif_neg (show (0 : Fin 1) ∉ (List.finRange 1).filter (· ∉ ([0] : List (Fin 1))) by decide)

/-- WHICH UPDATE LANDS WHERE, for a vector operand: update `e` lands at operand element `n` exactly when the signed
    index read at `(e, 0)` is `n`. -/
theorem resultIdx_vec_iff (wf : ScatterDims.WF (⟨1, ![N]⟩ : Shape) ⟨2, ![E, 1]⟩ ⟨1, ![E]⟩ [] [0] [0] 1)
    (idx : IVec ⟨2, ![E, 1]⟩ w) (e : Fin E) (n : Fin N) :
    (⟨[], [0], [0], 1, wf⟩ : ScatterDims ⟨1, ![N]⟩ ⟨2, ![E, 1]⟩ ⟨1, ![E]⟩).resultIdx? (ix1 e) idx = some (ix1 n)
      ↔ (idx (ix2 e 0)).toInt = (n : ℤ) := by
  rw [resultIdx_eq_some_iff]
  constructor
  · intro h
    have h0 := h 0
    rw [start_vec_zero, window_vec_zero] at h0
    have h0' : (idx (ix2 e 0)).toInt + ((0 : ℕ) : ℤ) = (n.val : ℤ) := h0
    omega
  · intro h0 a
    match a with
    | ⟨0, _⟩ =>
      show (⟨[], [0], [0], 1, wf⟩ : ScatterDims ⟨1, ![N]⟩ ⟨2, ![E, 1]⟩ ⟨1, ![E]⟩).start (ix1 e) idx 0
        + (((⟨[], [0], [0], 1, wf⟩ : ScatterDims ⟨1, ![N]⟩ ⟨2, ![E, 1]⟩ ⟨1, ![E]⟩).window (ix1 e) 0 : ℕ) : ℤ)
        = (n.val : ℤ)
      rw [start_vec_zero, window_vec_zero]
      omega

/-- THE VECTOR SCATTER READ AT `n`: the operand's element plus the sum, over the updates `e` whose signed index is
    `n`, of the update's element `e`. Updates whose index is negative or at least `N` meet no `n` and contribute
    nowhere. -/
theorem scatterAdd_vec_apply {φ : FTy}
    (wf : ScatterDims.WF (⟨1, ![N]⟩ : Shape) ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal)
        (⟨[], [0], [0], 1, wf⟩ : ScatterDims ⟨1, ![N]⟩ ⟨2, ![E, 1]⟩ ⟨1, ![E]⟩) x idx upd (ix1 n)
      = x (ix1 n)
        + ∑ e ∈ Finset.univ.filter (fun e : Fin E => (idx (ix2 e 0)).toInt = (n : ℤ)), upd (ix1 e) := by
  show x (ix1 n) + ∑ j ∈ Finset.univ.filter (fun j =>
      (⟨[], [0], [0], 1, wf⟩ : ScatterDims ⟨1, ![N]⟩ ⟨2, ![E, 1]⟩ ⟨1, ![E]⟩).resultIdx? j idx
        = some (ix1 n)), upd j = _
  congr 1
  rw [Finset.sum_filter, sum_idx1, Finset.sum_filter]
  exact Finset.sum_congr rfl fun e _ => if_congr (resultIdx_vec_iff wf idx e n) rfl rfl

end Vec

end ScatterRows

end
-- ==== Proof.LibSetScatter.lean ====
/-
  A scatter whose body keeps the update (`x.at[…].set(v)`), read at an element; and the window write at the origin.

  The host's scatter is a left fold over the update's elements: each element that lands inside the operand replaces the
  operand's element there, and one that lands outside is dropped. When at most one update lands on an element the order of
  the fold does not matter there: the element ends at that update's value, and an element no update lands on keeps the
  operand's value (`scatter_set_lands`, `scatter_set_untouched`). The second half is the case that pads an array: an
  `[n, d]` update written as ONE window at the origin of an `[N, D]` operand (both update axes window axes, a single start
  index read as zero). Element `(a, b)` of the update lands on element `(a, b)` of the operand, so the result is the update
  inside the window and the operand outside it. Nothing here mentions a program.
-/
import Idealize.ShloMosaic.PureOps.Ideal
import Idealize.ShloMosaic.Lib.ValueIdx
import proofs.«166349_j8744553415010_2_alg».proof.Proof.LibScatterRows

noncomputable section

namespace Cert.Lib.SetScatter

open Idealize.ShloMosaic Idealize.ShloMosaic.ValueIdx

/-! ## A fold of steps each of which rewrites one place -/

section Fold
variable {ι β α : Type}

/-- A place no step of the list lands on keeps its value. -/
theorem foldl_untouched (step : (ι → α) → β → ι → α) (g : β → Option ι) (i : ι)
    (hother : ∀ r j, g j ≠ some i → step r j i = r i) :
    ∀ (l : List β) (r : ι → α), (∀ j ∈ l, g j ≠ some i) → l.foldl step r i = r i
  | [], _, _ => rfl
  | j :: l, r, h => by
    rw [List.foldl_cons, foldl_untouched step g i hother l (step r j) (fun j' hj' => h j' (List.mem_cons_of_mem _ hj'))]
    exact hother r j (h j (List.mem_cons.mpr (Or.inl rfl)))

/-- A place some step of the list lands on, all the steps that land on it writing one value, ends at that value. -/
theorem foldl_lands (step : (ι → α) → β → ι → α) (g : β → Option ι) (upd : β → α) (i : ι)
    (hland : ∀ r j, g j = some i → step r j i = upd j)
    (hother : ∀ r j, g j ≠ some i → step r j i = r i) :
    ∀ (l : List β) (r : ι → α) (j0 : β), j0 ∈ l → g j0 = some i → (∀ j ∈ l, g j = some i → upd j = upd j0) →
      l.foldl step r i = upd j0
  | [], _, _, h, _, _ => absurd h List.not_mem_nil
  | j :: l, r, j0, hmem, hj0, hsame => by
    rw [List.foldl_cons]
    by_cases hex : ∃ j1 ∈ l, g j1 = some i
    · obtain ⟨j1, hj1, hg1⟩ := hex
      have e1 : upd j1 = upd j0 := hsame j1 (List.mem_cons_of_mem _ hj1) hg1
      rw [← e1]
      exact foldl_lands step g upd i hland hother l (step r j) j1 hj1 hg1
        (fun j' hj' hg' => (hsame j' (List.mem_cons_of_mem _ hj') hg').trans e1.symm)
    · have hnone : ∀ j' ∈ l, g j' ≠ some i := fun j' hj' hg' => hex ⟨j', hj', hg'⟩
      rw [foldl_untouched step g i hother l (step r j) hnone]
      have hj : j0 = j := by
        rcases List.mem_cons.mp hmem with h | h
        · exact h
        · exact absurd hj0 (hnone j0 h)
      rw [hj] at hj0 ⊢
      exact hland r j hj0

end Fold

/-! ## The scatter that keeps the update -/

section Scatter
variable {s si u : Shape} {α : Type} {w : Nat}

/-- One step of the fold: the update at row-major position `n` replaces the element it lands on. -/
def setStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (setStep d idx upd) x := rfl

theorem setStep_lands (d : ScatterDims s si u) (idx : IVec si w) (upd : u.Idx → α) (i : s.Idx) (r : s.Idx → α)
    (n : Fin u.numel) (h : d.resultIdx? (u.rowMajor.symm n) idx = some i) :
    setStep d idx upd r n i = upd (u.rowMajor.symm n) := by
  unfold setStep
  rw [h]
  exact if_pos rfl

theorem setStep_other (d : ScatterDims s si u) (idx : IVec si w) (upd : u.Idx → α) (i : s.Idx) (r : s.Idx → α)
    (n : Fin u.numel) (h : d.resultIdx? (u.rowMajor.symm n) idx ≠ some i) :
    setStep d idx upd r n i = r i := by
  unfold setStep
  cases h' : d.resultIdx? (u.rowMajor.symm n) idx with
  | none => rfl
  | some i' =>
    have hne : i ≠ i' := fun e => h (by rw [h', e])
    exact if_neg hne

/-- An element exactly one update lands on ends at that update. -/
theorem scatter_set_lands (d : ScatterDims s si u) (x : s.Idx → α) (idx : IVec si w) (upd : u.Idx → α)
    (i : s.Idx) (j0 : u.Idx) (h0 : d.resultIdx? j0 idx = some i) (huniq : ∀ j, d.resultIdx? j idx = some i → j = j0) :
    Host.scatter d (fun _ b => b) x idx upd i = upd j0 := by
  rw [scatter_eq_foldl]
  have key := foldl_lands (setStep d idx upd) (fun n => d.resultIdx? (u.rowMajor.symm n) idx)
    (fun n => upd (u.rowMajor.symm n)) i
    (fun r n h => setStep_lands d idx upd i r n h) (fun r n h => setStep_other d idx upd i r n h)
    (List.finRange u.numel) x (u.rowMajor j0) (List.mem_finRange _)
    (by show d.resultIdx? (u.rowMajor.symm (u.rowMajor j0)) idx = some i; rw [Equiv.symm_apply_apply]; exact h0)
    (fun n _ hn => by
      show upd (u.rowMajor.symm n) = upd (u.rowMajor.symm (u.rowMajor j0))
      rw [Equiv.symm_apply_apply, huniq _ hn])
  rw [key]
  show upd (u.rowMajor.symm (u.rowMajor j0)) = upd j0
  rw [Equiv.symm_apply_apply]

/-- An element no update lands on keeps the operand's value. -/
theorem scatter_set_untouched (d : ScatterDims s si u) (x : s.Idx → α) (idx : IVec si w) (upd : u.Idx → α)
    (i : s.Idx) (hnone : ∀ j, d.resultIdx? j idx ≠ some i) :
    Host.scatter d (fun _ b => b) x idx upd i = x i := by
  rw [scatter_eq_foldl]
  exact foldl_untouched (setStep d idx upd) (fun n => d.resultIdx? (u.rowMajor.symm n) idx) i
    (fun r n h => setStep_other d idx upd i r n h) (List.finRange u.numel) x (fun n _ => hnone _)

end Scatter

/-! ## One window written at the origin of a matrix -/

section Window
variable {N D n d w : Nat} {α : Type} (sd : Fin 2)

/-- The dimension numbers of an `[n, d]` window written into an `[N, D]` matrix at ONE start index (a vector of one
    entry, naming operand axis `sd`): both update axes are window axes. -/
abbrev windowDims
    (wf : ScatterDims.WF (⟨2, ![N, D]⟩ : Shape) ⟨1, ![1]⟩ ⟨2, ![n, d]⟩ [0, 1] [] [sd] 0) :
    ScatterDims (⟨2, ![N, D]⟩ : Shape) ⟨1, ![1]⟩ ⟨2, ![n, d]⟩ :=
  ⟨[0, 1], [], [sd], 0, wf⟩

variable (wf : ScatterDims.WF (⟨2, ![N, D]⟩ : Shape) ⟨1, ![1]⟩ ⟨2, ![n, d]⟩ [0, 1] [] [sd] 0)

/-- With the start index read as zero the window starts at the origin on every axis. -/
theorem start_zero (idx : IVec ⟨1, ![1]⟩ w) (hidx : ∀ k, (idx k).toInt = 0) (j : (⟨2, ![n, d]⟩ : Shape).Idx) (a : Fin 2) :
    (windowDims sd wf).start j idx a = 0 := by
  unfold ScatterDims.start
  split
  · exact hidx _
  · rfl

/-- On the row axis the window coordinate of update `(a, b)` is `a`. -/
theorem window_row (j : (⟨2, ![n, d]⟩ : Shape).Idx) : (windowDims sd wf).window j 0 = (j 0).val := by
  unfold ScatterDims.window
  refine (dif_pos (show (0 : Fin 2) ∈ (List.finRange 2).filter (· ∉ ([] : List (Fin 2))) by decide)).trans ?_
  rfl

/-- On the column axis the window coordinate of update `(a, b)` is `b`. -/
theorem window_col (j : (⟨2, ![n, d]⟩ : Shape).Idx) : (windowDims sd wf).window j 1 = (j 1).val := by
  unfold ScatterDims.window
  refine (dif_pos (show (1 : Fin 2) ∈ (List.finRange 2).filter (· ∉ ([] : List (Fin 2))) by decide)).trans ?_
  rfl

/-- Update `(a, b)` lands on operand element `(a, b)`. -/
theorem lands_iff (idx : IVec ⟨1, ![1]⟩ w) (hidx : ∀ k, (idx k).toInt = 0) (j : (⟨2, ![n, d]⟩ : Shape).Idx)
    (i : (⟨2, ![N, D]⟩ : Shape).Idx) :
    (windowDims sd wf).resultIdx? j idx = some i ↔ (j 0).val = (i 0).val ∧ (j 1).val = (i 1).val := by
  rw [ScatterRows.resultIdx_eq_some_iff]
  constructor
  · intro h
    have h0 := h 0
    have h1 := h 1
    rw [start_zero sd wf idx hidx, window_row] at h0
    rw [start_zero sd wf idx hidx, window_col] at h1
    exact ⟨by omega, by omega⟩
  · rintro ⟨h0, h1⟩ a
    match a with
    | ⟨0, _⟩ =>
      show (windowDims sd wf).start j idx 0 + (((windowDims sd wf).window j 0 : ℕ) : ℤ) = ((i 0).val : ℤ)
      rw [start_zero sd wf idx hidx, window_row]
      omega
    | ⟨1, _⟩ =>
      show (windowDims sd wf).start j idx 1 + (((windowDims sd wf).window j 1 : ℕ) : ℤ) = ((i 1).val : ℤ)
      rw [start_zero sd wf idx hidx, window_col]
      omega

/-- Inside the window the result is the update. -/
theorem window_write_inside (x : (⟨2, ![N, D]⟩ : Shape).Idx → α) (idx : IVec ⟨1, ![1]⟩ w)
    (hidx : ∀ k, (idx k).toInt = 0) (upd : (⟨2, ![n, d]⟩ : Shape).Idx → α) (P : Fin N) (Q : Fin D)
    (hP : P.val < n) (hQ : Q.val < d) :
    Host.scatter (windowDims sd wf) (fun _ b => b) x idx upd (ix2 P Q) = upd (ix2 ⟨P.val, hP⟩ ⟨Q.val, hQ⟩) := by
  refine scatter_set_lands _ x idx upd (ix2 P Q) (ix2 ⟨P.val, hP⟩ ⟨Q.val, hQ⟩)
    ((lands_iff sd wf idx hidx _ _).mpr ⟨rfl, rfl⟩) (fun j hj => ?_)
  obtain ⟨h0, h1⟩ := (lands_iff sd wf idx hidx _ _).mp hj
  have e0 : j 0 = ⟨P.val, hP⟩ := Fin.ext h0
  have e1 : j 1 = ⟨Q.val, hQ⟩ := Fin.ext h1
  funext a
  match a with
  | ⟨0, _⟩ => exact e0
  | ⟨1, _⟩ => exact e1

/-- Outside the window the result is the operand. -/
theorem window_write_outside (x : (⟨2, ![N, D]⟩ : Shape).Idx → α) (idx : IVec ⟨1, ![1]⟩ w)
    (hidx : ∀ k, (idx k).toInt = 0) (upd : (⟨2, ![n, d]⟩ : Shape).Idx → α) (P : Fin N) (Q : Fin D)
    (hout : n ≤ P.val ∨ d ≤ Q.val) :
    Host.scatter (windowDims sd wf) (fun _ b => b) x idx upd (ix2 P Q) = x (ix2 P Q) := by
  refine scatter_set_untouched _ x idx upd (ix2 P Q) (fun j hj => ?_)
  obtain ⟨h0, h1⟩ := (lands_iff sd wf idx hidx _ _).mp hj
  have l0 := idx2_lt0 j
  have l1 := idx2_lt1 j
  have h0' : (j 0).val = P.val := h0
  have h1' : (j 1).val = Q.val := h1
  omega

end Window

end Cert.Lib.SetScatter

end
-- ==== Proof.HostPad.lean ====
/-
  The three arrays the host prepares before the kernel runs, read entry by entry over the extended reals.

  The wide A is the 128-row zero matrix with A (its float format changed, which is the identity here) written over its first
  16 rows; the wide B is the 128-column zero matrix with B written over its first 16 columns; the bias row is the bias
  reshaped to one row. So the first is A continued by zero rows, the second B continued by zero columns, the third the bias
  read at its column.
-/
import proofs.«166349_j8744553415010_2_alg».proof.Proof.Gen.KernelIdeal.Frame
import proofs.«166349_j8744553415010_2_alg».proof.Proof.LibSetScatter
import proofs.«166349_j8744553415010_2_alg».proof.Proof.Spec
import Idealize.ShloMosaic.Lib.StableHlo.Run
import Idealize.ShloMosaic.Lib.IdealHost
import Idealize.ShloMosaic.Lib.Pipeline.Value

noncomputable section

namespace Cert.Lora.HostPad

open Cert.KernelIdeal Cert.KernelIdeal.Gen Idealize.ShloMosaic Idealize.ShloMosaic.TcCoe Idealize.SL.Sem
open Idealize.ShloMosaic.ValueIdx Cert.Lib.SetScatter

variable (m : (ℓ : Loc nD τ sig) → Buf (Elt Ideal) ℓ)

/-- The one start index of either window is the integer zero. -/
theorem start_is_zero (k : S1.Idx) :
    ((broadcastInDim S1 ![] bcast_S_S1 (constantI S_ 32 0#32) : IVec S1 32) k).toInt = 0 := by
  show (0#32 : BitVec 32).toInt = 0
  decide

/-- The wide A as the region finds it: A continued by zero rows. -/
theorem wideA_eq (c : Dev nD) :
    (V m c main_v3 : S128x4096.Idx → EReal) = padRows (m ((c : Thread nD τ).loc main_arg3)) := by
  have e : (V m c main_v3 : S128x4096.Idx → EReal)
      = Host.scatter scatter_S128x4096_S1_S16x4096_01_n_0_0 (fun _ b => b)
          (broadcastInDim S128x4096 ![] bcast_S_S128x4096 (constant (F := Ideal) S_ .bf16 0x0000#16))
          (broadcastInDim S1 ![] bcast_S_S1 (constantI S_ 32 0#32))
          (truncf (F := Ideal) .bf16 (m ((c : Thread nD τ).loc main_arg3)) bitsLt_bf16_f32) := by
    dsimp only [V, hostOps0]; after_results
  funext i
  obtain ⟨r, k, rfl⟩ : ∃ (r : Fin 128) (k : Fin 4096), i = ix2 r k := ⟨i 0, i 1, eq_ix2 i⟩
  rw [e]
  by_cases hr : r.val < 16
  · rw [padRows_of_lt _ r k hr]
    exact (window_write_inside (sd := 0) scatter_S128x4096_S1_S16x4096_01_n_0_0_wf _ _ start_is_zero _ r k hr k.isLt).trans rfl
  · rw [padRows_of_ge _ r k hr]
    exact (window_write_outside (sd := 0) scatter_S128x4096_S1_S16x4096_01_n_0_0_wf _ _ start_is_zero _ r k
      (Or.inl (Nat.le_of_not_lt hr))).trans Ideal.ofBits_zero_bf16

/-- The wide B as the region finds it: B continued by zero columns. -/
theorem wideB_eq (c : Dev nD) :
    (V m c main_v6 : S4096x128.Idx → EReal) = padCols (m ((c : Thread nD τ).loc main_arg4)) := by
  have e : (V m c main_v6 : S4096x128.Idx → EReal)
      = Host.scatter scatter_S4096x128_S1_S4096x16_01_n_1_0 (fun _ b => b)
          (broadcastInDim S4096x128 ![] bcast_S_S4096x128 (constant (F := Ideal) S_ .f32 0x00000000#32))
          (broadcastInDim S1 ![] bcast_S_S1 (constantI S_ 32 0#32))
          (m ((c : Thread nD τ).loc main_arg4)) := by
    dsimp only [V, hostOps0]; after_results
  funext i
  obtain ⟨o, r, rfl⟩ : ∃ (o : Fin 4096) (r : Fin 128), i = ix2 o r := ⟨i 0, i 1, eq_ix2 i⟩
  rw [e]
  by_cases hr : r.val < 16
  · rw [padCols_of_lt _ o r hr]
    exact (window_write_inside (sd := 1) scatter_S4096x128_S1_S4096x16_01_n_1_0_wf _ _ start_is_zero _ o r o.isLt hr).trans rfl
  · rw [padCols_of_ge _ o r hr]
    exact (window_write_outside (sd := 1) scatter_S4096x128_S1_S4096x16_01_n_1_0_wf _ _ start_is_zero _ o r
      (Or.inr (Nat.le_of_not_lt hr))).trans Ideal.ofBits_zero_f32

/-- The bias row as the region finds it: the bias at its column. -/
theorem biasRow_eq (c : Dev nD) :
    (V m c main_v7 : S1x4096.Idx → EReal) = biasRow (m ((c : Thread nD τ).loc main_arg2)) := by
  have e : (V m c main_v7 : S1x4096.Idx → EReal)
      = shapeCast S1x4096 (m ((c : Thread nD τ).loc main_arg2)) shapeCasts_S4096_S1x4096 := by
    dsimp only [V, hostOps0]; after_results; rfl
  funext i
  obtain ⟨z, q, rfl⟩ : ∃ (z : Fin 1) (q : Fin 4096), i = ix2 z q := ⟨i 0, i 1, eq_ix2 i⟩
  rw [e]
  exact shapeCast_apply _ shapeCasts_S4096_S1x4096 (ix2 z q) (ix1 q) (by
    rw [Shape.rowMajor_val_one, Shape.rowMajor_val_two]
    have hz : z.val = 0 := by omega
    show q.val = z.val * 4096 + q.val
    rw [hz]; omega)

end Cert.Lora.HostPad

end
-- ==== Proof.Final.lean ====
/-
  The kernel's result array is the layer.

  Only the last point of each run of eight writes its output block back, and what it writes at (p, q) is the finishing
  expression of the two accumulators as that point leaves them: the whole base product of row 1024·(t/16) + p of x with row
  2048·((t/8)%2) + q of W, plus the bias at that column, plus twice the product of the whole x·Apᵀ row with that row of Bp —
  entry (row, column) of the wide layer (`out_entry`). The sixteen write-backs tile the [8192, 4096] result (`covered`), so
  the array ends at the wide layer of the arrays the region finds, and those are x, W, the bias as a row, and A and B continued
  by zeros: the layer itself (`run`).
-/
import proofs.«166349_j8744553415010_2_alg».proof.Proof.Gen.KernelIdeal.Value
import proofs.«166349_j8744553415010_2_alg».proof.Proof.Invariant
import proofs.«166349_j8744553415010_2_alg».proof.Proof.HostPad
import proofs.«166349_j8744553415010_2_alg».proof.Proof.Spec

noncomputable section

namespace Cert.Lora.Final

open Cert.KernelIdeal Cert.KernelIdeal.Gen Idealize.ShloMosaic Idealize.ShloMosaic.TcCoe Idealize.SL.Sem
open Idealize.ShloMosaic.ValueIdx Cert.Lora Cert.Lora.Pieces Cert.Lora.Blocks Cert.Lora.Payload Cert.Lora.Invariant
open Idealize.ShloMosaic.Pipeline (Dat)

variable (m : (ℓ : Loc nD τ sig) → Buf (Elt Ideal) ℓ) (ρ : Dev nD → PrngReg)

/-- The wide layer of the five arrays the region finds. -/
abbrev KGm (c : Dev nD) : S8192x4096.Idx → EReal := KG (Xa m c) (Wa m c) (B2 m c) (Ap m c) (Bp m c)

/-- Entry (p, q) of the block the last point of a run stores is entry (row, column) of the wide layer. -/
theorem out_entry (c : Dev nD) (t : Fin cfg0.N) (h7 : t.val % 8 = 7) (p : Fin 1024) (q : Fin 2048)
    (Row : Fin 8192) (Col : Fin 4096) (hR : Row.val = 1024 * (t.val / 16) + p.val)
    (hC : Col.val = 2048 * ((t.val / 8) % 2) + q.val) :
    (outsAt0 m c t.val t.isLt).1 (ix2 p q) = kentry (Xa m c) (Wa m c) (B2 m c) (Ap m c) (Bp m c) Row Col := by
  have h0 : ¬t.val % 8 = 0 := by omega
  have eo := scrC_out m c t h0 h7
  have e0 := scrC_base m c t h0 h7
  have e1 := scrC_xa m c t h0 h7
  obtain ⟨i0, i1⟩ := acc_inv m c t.val t.isLt
  obtain ⟨-, -, -, -, -, -, -, -, -, -, -, -, e1c, -⟩ := idx_facts t
  have hb : k0_pay4 (F := Ideal) (xBlk m c t) (wBlk m c t) (outsAt0 m c (t.val - 1) (Nat.lt_of_le_of_lt (Nat.sub_le _ _) t.isLt)).2.1 (ix2 p q)
      = ∑ kk : Fin 4096, Xa m c (ix2 Row kk) * Wa m c (ix2 Col kk) := by
    rw [← e0, i0 p q, h7, blockAcc_last]
    exact Finset.sum_congr rfl fun kk _ => by
      unfold fBase
      rw [rowN_eq _ _ Row hR kk, rowN_eq _ _ Col hC kk]
  have hx : ∀ r : Fin 128, k0_pay5 (F := Ideal) (xBlk m c t) (colsOfA (F := Ideal) (grid0.coords t) (aBlk m c t)) (outsAt0 m c (t.val - 1) (Nat.lt_of_le_of_lt (Nat.sub_le _ _) t.isLt)).2.2 (ix2 p r)
      = ∑ kk : Fin 4096, Xa m c (ix2 Row kk) * Ap m c (ix2 r kk) := fun r => by
    rw [← e1, i1 p r, h7, blockAcc_last]
    exact Finset.sum_congr rfl fun kk _ => by
      unfold fXa
      rw [rowN_eq _ _ Row hR kk]
  have hbias : biasBlk m c t (ix2 (0 : Fin 1) q) = B2 m c (ix2 (0 : Fin 1) Col) :=
    biasBlk_apply m c t q Col hC
  have hB : ∀ r : Fin 128, rowsOfB (F := Ideal) (grid0.coords t) ((hcond0_1 t).mpr h7) (bBlk m c t) (ix2 q r)
      = Bp m c (ix2 Col r) := fun r => by
    rw [rowsOfB_apply (grid0.coords t) ((hcond0_1 t).mpr h7) (bBlk m c t) q r Col (by rw [e1c]; exact hC)]
    exact congrFun (bBlk_eq m c t) _
  rw [eo, finish_apply (rowsOfB (F := Ideal) (grid0.coords t) ((hcond0_1 t).mpr h7) (bBlk m c t))
    (k0_pay5 (F := Ideal) (xBlk m c t) (colsOfA (F := Ideal) (grid0.coords t) (aBlk m c t)) (outsAt0 m c (t.val - 1) (Nat.lt_of_le_of_lt (Nat.sub_le _ _) t.isLt)).2.2)
    (k0_pay4 (F := Ideal) (xBlk m c t) (wBlk m c t) (outsAt0 m c (t.val - 1) (Nat.lt_of_le_of_lt (Nat.sub_le _ _) t.isLt)).2.1) (biasBlk m c t) p q, hb, hbias]
  unfold kentry
  congr 2
  exact Finset.sum_congr rfl fun r _ => by rw [hx r, hB r]

/-- The same at any index of the block and the array index it is written to. -/
theorem out_at (c : Dev nD) (t : Fin cfg0.N) (h7 : t.val % 8 = 7) (j : S1024x2048.Idx) (I : S8192x4096.Idx)
    (hI0 : (I 0).val = 1024 * (t.val / 16) + (j 0).val) (hI1 : (I 1).val = 2048 * ((t.val / 8) % 2) + (j 1).val) :
    (outsAt0 m c t.val t.isLt).1 j = KGm m c I := by
  obtain ⟨p, q, rfl⟩ : ∃ (p : Fin 1024) (q : Fin 2048), j = ix2 p q := ⟨j 0, j 1, eq_ix2 j⟩
  obtain ⟨Row, Col, rfl⟩ : ∃ (Row : Fin 8192) (Col : Fin 4096), I = ix2 Row Col := ⟨I 0, I 1, eq_ix2 I⟩
  exact out_entry m c t h7 p q Row Col hI0 hI1

/-- What a flushing point writes back is its block of the wide layer. -/
theorem flushed_eq (c : Dev nD) (t : Fin cfg0.N) (hf : (cfg0.win 5).flush t = true) :
    (dats m 0 c).flushed 5 t = ((cfg0.win 5).blk t).view.read (Elt Ideal) (KGm m c) := by
  have h7 : t.val % 8 = 7 := (flush0_5 t).mp hf
  obtain ⟨-, -, -, -, -, -, -, -, -, -, e0, e1, -⟩ := idx_facts t
  rw [Cert.KernelIdeal.Value.flushed5]
  funext j
  show (outsAt0 m c t.val t.isLt).1 j = KGm m c (((cfg0.win 5).blk t).view.emb j)
  exact out_at m c t h7 j (((cfg0.win 5).blk t).view.emb j)
    (by show win0_5.index t (0 : Fin 2) * 1024 + 1 * (j 0).val = _; rw [e0]; omega)
    (by show win0_5.index t (1 : Fin 2) * 2048 + 1 * (j 1).val = _; rw [e1]; omega)

/-- An index of the result is in point `t`'s block iff each coordinate is in the block's range on its axis. -/
theorem mem_blk (t : Fin cfg0.N) (i : S8192x4096.Idx) :
    i ∈ ((cfg0.win 5).blk t).view.set ↔ ∀ a : Fin 2, win0_5.index t a * S1024x2048.size a ≤ (i a).val
      ∧ (i a).val < win0_5.index t a * S1024x2048.size a + S1024x2048.size a := by
  show i ∈ ((View.whole main_v8).slice (win0_5.rect t)).set ↔ _
  rw [View.set_slice_whole, Rect.mem_set_unit]
  exact Iff.rfl

/-- Every index of the result is in the block of the last point of its run. -/
theorem covered (i : S8192x4096.Idx) :
    ∃ t : Fin cfg0.N, (cfg0.win 5).flush t = true ∧ i ∈ ((cfg0.win 5).blk t).view.set := by
  have h0 := idx2_lt0 i
  have h1 := idx2_lt1 i
  have hN : cfg0.N = 128 := N_0
  obtain ⟨tv, htv⟩ : ∃ tv : ℕ, tv = ((i 0).val / 1024 * 2 + (i 1).val / 2048) * 8 + 7 := ⟨_, rfl⟩
  have hlt : tv < cfg0.N := by omega
  have e := idx_facts ⟨tv, hlt⟩
  have e0 : win0_5.index ⟨tv, hlt⟩ (0 : Fin 2) = tv / 16 := e.2.2.2.2.2.2.2.2.2.2.1
  have e1 : win0_5.index ⟨tv, hlt⟩ (1 : Fin 2) = (tv / 8) % 2 := e.2.2.2.2.2.2.2.2.2.2.2.1
  refine ⟨⟨tv, hlt⟩, (flush0_5 _).mpr (by show tv % 8 = 7; omega), ?_⟩
  rw [mem_blk]
  intro a
  match a with
  | ⟨0, _⟩ =>
    show win0_5.index ⟨tv, hlt⟩ (0 : Fin 2) * 1024 ≤ (i 0).val
      ∧ (i 0).val < win0_5.index ⟨tv, hlt⟩ (0 : Fin 2) * 1024 + 1024
    rw [e0]; omega
  | ⟨1, _⟩ =>
    show win0_5.index ⟨tv, hlt⟩ (1 : Fin 2) * 2048 ≤ (i 1).val
      ∧ (i 1).val < win0_5.index ⟨tv, hlt⟩ (1 : Fin 2) * 2048 + 2048
    rw [e1]; omega

/-- The result array after the run is the wide layer of the arrays the region finds. -/
theorem final (c : Dev nD) : (dats m 0 c).arrAt 5 cfg0.N = KGm m c :=
  (dats m 0 c).arrAt_eq_of_cover 5 (KGm m c) (fun t hf => flushed_eq m c t hf) covered

/-- The wide layer of the arrays the region finds is the layer of the arguments. -/
theorem KGm_eq_G (c : Dev nD) :
    KGm m c = G (m ((c : Thread nD τ).loc main_arg0)) (m ((c : Thread nD τ).loc main_arg1))
      (m ((c : Thread nD τ).loc main_arg2)) (m ((c : Thread nD τ).loc main_arg3)) (m ((c : Thread nD τ).loc main_arg4)) := by
  show KG (V m c main_arg0) (V m c main_arg1) (V m c main_v7) (V m c main_v3) (V m c main_v6) = _
  rw [V_main_arg0, V_main_arg1, HostPad.biasRow_eq, HostPad.wideA_eq, HostPad.wideB_eq]
  exact KG_pad_eq_G _ _ _ _ _

/-- The kernel's run: the result array at the layer of the arguments, the arguments unchanged. -/
theorem run : θ_run defs (onTc (τ := τ) (main (F := Ideal))) ⟨m, fun _ => 0, ρ⟩ fun r => ∀ c : Dev nD,
      r.2.mem ((c : Thread nD τ).loc main_v8) = G (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (KGm_eq_G m c)), (h c).2⟩)
    (Cert.KernelIdeal.Value.run_blocks m ρ)

end Cert.Lora.Final

end
-- ==== Proof.RefSpec.lean ====
/-
  The reference computes the layer: its result array, read entry by entry, is `G` of its five arguments.

  Entry (t, o) of the host program's result is (Σ_k x(t,k)·W(o,k) + bias(o)) + 2·Σ_r (Σ_k x(t,k)·A(r,k))·B(o,r): the three
  contractions each sum over their one contracted axis, the bias is laid along the rows by two broadcasts, and the scale is a
  splat of the one word 2.0.
-/
import proofs.«166349_j8744553415010_2_alg».proof.Proof.Gen.ReferenceIdeal.Read
import proofs.«166349_j8744553415010_2_alg».proof.Proof.Spec

noncomputable section

namespace Cert.Lora.RefSpec

open Cert.ReferenceIdeal Cert.ReferenceIdeal.Read Idealize.ShloMosaic Idealize.ShloMosaic.ValueIdx Cert.Lora

theorem ref_eq_G (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) :
    val_main_v8 (F := Ideal) x0 x1 x2 x3 x4 = G x0 x1 x2 x3 x4 := by
  funext i
  obtain ⟨t, o, rfl⟩ : ∃ (t : Fin 8192) (o : Fin 4096), i = ix2 t o := ⟨i 0, i 1, eq_ix2 i⟩
  have el0 : ∀ k : Fin 4096, lidx_main_v0 (ix2 t o) k = ix2 t k := fun k => funext fun a => by
    match a with
    | ⟨0, _⟩ => rfl
    | ⟨1, _⟩ => rfl
  have er0 : ∀ k : Fin 4096, ridx_main_v0 (ix2 t o) k = ix2 o k := fun k => funext fun a => by
    match a with
    | ⟨0, _⟩ => rfl
    | ⟨1, _⟩ => rfl
  have eb : idx_main_v1 (idx_main_v2 (ix2 t o)) = ix1 o := funext fun a => by
    match a with
    | ⟨0, _⟩ => rfl
  have el5 : ∀ r : Fin 16, lidx_main_v5 (ix2 t o) r = ix2 t r := fun r => funext fun a => by
    match a with
    | ⟨0, _⟩ => rfl
    | ⟨1, _⟩ => rfl
  have er5 : ∀ r : Fin 16, ridx_main_v5 (ix2 t o) r = ix2 o r := fun r => funext fun a => by
    match a with
    | ⟨0, _⟩ => rfl
    | ⟨1, _⟩ => rfl
  have el4 : ∀ (r : Fin 16) (k : Fin 4096), lidx_main_v4 (ix2 t r) k = ix2 t k := fun r k => funext fun a => by
    match a with
    | ⟨0, _⟩ => rfl
    | ⟨1, _⟩ => rfl
  have er4 : ∀ (r : Fin 16) (k : Fin 4096), ridx_main_v4 (ix2 t r) k = ix2 r k := fun r k => funext fun a => by
    match a with
    | ⟨0, _⟩ => rfl
    | ⟨1, _⟩ => rfl
  rw [val_main_v8_apply, val_main_v3_apply, val_main_v7_apply, val_main_v0_apply, val_main_v2_apply, val_main_v1_apply,
    val_main_v6_apply, val_main_cst_apply, val_main_v5_apply]
  simp only [val_main_v4_apply, el0, er0, eb, el5, er5, el4, er4, Ideal.addf_def, Ideal.mulf_def, Ideal.ofBits_def]
  rfl

end Cert.Lora.RefSpec

end
-- ==== Proof.lean ====
/-
  A linear layer with a low-rank correction, out = x·Wᵀ + bias + 2·(x·Aᵀ)·Bᵀ over x [8192, 4096], W [4096, 4096], A [16, 4096],
  B [4096, 16]: a kernel that walks the contracted axis in eight blocks of 512 per output block [1024, 2048], keeping the base
  product and x·Aᵀ in two accumulators, with the rank axis widened from 16 to 128 by zeros, against the host's three whole
  contractions.

  Over the extended reals both programs compute, at entry (t, o),
      (Σ_k x(t,k)·W(o,k) + bias(o)) + 2·Σ_{r<16} (Σ_k x(t,k)·A(r,k))·B(o,r).
  The kernel's accumulators hold partial sums over blocks of the contracted axis, which after the eighth block are the whole
  sums (associativity and commutativity of the addition only); the padded rank terms are products with zero, which vanish
  whatever the other factor; a change of float format is the identity; the two programs add the three parts in the same
  order. The precondition is never opened: the equality holds at the infinities too.

  Frames: the kernel's two frames are the generated ones; the reference's is its generated run with the result dropped. The
  idealization rewrote nothing. The value claim puts the kernel's run (Proof/Final.lean) beside the reference's run read
  entry by entry (Proof/RefSpec.lean), both at the one function `G` (Proof/Spec.lean) of the agreeing arguments.
-/
import proofs.«166349_j8744553415010_2_alg».proof.Defs
import proofs.«166349_j8744553415010_2_alg».proof.Proof.Gen.Kernel
import proofs.«166349_j8744553415010_2_alg».proof.Proof.Gen.Kernel.Skeleton
import proofs.«166349_j8744553415010_2_alg».proof.Proof.Gen.Kernel.Launch
import proofs.«166349_j8744553415010_2_alg».proof.Proof.Gen.Kernel.Points
import proofs.«166349_j8744553415010_2_alg».proof.Proof.Gen.Kernel.Frame
import proofs.«166349_j8744553415010_2_alg».proof.Proof.Gen.KernelIdeal
import proofs.«166349_j8744553415010_2_alg».proof.Proof.Gen.KernelIdeal.Skeleton
import proofs.«166349_j8744553415010_2_alg».proof.Proof.Gen.KernelIdeal.Launch
import proofs.«166349_j8744553415010_2_alg».proof.Proof.Gen.KernelIdeal.Points
import proofs.«166349_j8744553415010_2_alg».proof.Proof.Gen.KernelIdeal.Frame
import proofs.«166349_j8744553415010_2_alg».proof.Proof.Gen.ReferenceIdeal
import proofs.«166349_j8744553415010_2_alg».proof.Proof.Gen.Pre_finite_inputs
import proofs.«166349_j8744553415010_2_alg».proof.Proof.Gen.KernelIdeal.Value
import proofs.«166349_j8744553415010_2_alg».proof.Proof.Gen.ReferenceIdeal.Run
import proofs.«166349_j8744553415010_2_alg».proof.Proof.Gen.ReferenceIdeal.Read
import proofs.«166349_j8744553415010_2_alg».proof.Proof.Final
import proofs.«166349_j8744553415010_2_alg».proof.Proof.RefSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the layer `G` of arguments that agree. -/
theorem algebraic : Cert.algebraic_KernelIdeal_ReferenceIdeal := by
  intro m ρ m' ρ' _ hagree
  refine ⟨fun c => Cert.Lora.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.Lora.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.Lora.RefSpec.ref_eq_G, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
